-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x64 : Shape := ⟨3, ![16, 1024, 64]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel

variable [Facts]

def fn {F : FTy → Type} [FloatOps F] (main_arg0 : FVec F S16x1024x64 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  main_v3
-- ==== Kernel.lean ====
abbrev S16x1024x64 : Shape := ⟨3, ![16, 1024, 64]⟩
abbrev S16x1017x8x512 : Shape := ⟨4, ![16, 1017, 8, 512]⟩
abbrev S1x1024x64 : Shape := ⟨3, ![1, 1024, 64]⟩
abbrev S1x1017x8x512 : Shape := ⟨4, ![1, 1017, 8, 512]⟩
abbrev S1x1x64 : Shape := ⟨3, ![1, 1, 64]⟩
abbrev S1x64 : Shape := ⟨2, ![1, 64]⟩
abbrev S7x64 : Shape := ⟨2, ![7, 64]⟩
abbrev S1x106x64 : Shape := ⟨3, ![1, 106, 64]⟩
abbrev S106x64 : Shape := ⟨2, ![106, 64]⟩
abbrev S113x64 : Shape := ⟨2, ![113, 64]⟩
abbrev S6x64 : Shape := ⟨2, ![6, 64]⟩
abbrev S1x107x64 : Shape := ⟨3, ![1, 107, 64]⟩
abbrev S107x64 : Shape := ⟨2, ![107, 64]⟩
abbrev S5x64 : Shape := ⟨2, ![5, 64]⟩
abbrev S1x108x64 : Shape := ⟨3, ![1, 108, 64]⟩
abbrev S108x64 : Shape := ⟨2, ![108, 64]⟩
abbrev S4x64 : Shape := ⟨2, ![4, 64]⟩
abbrev S1x109x64 : Shape := ⟨3, ![1, 109, 64]⟩
abbrev S109x64 : Shape := ⟨2, ![109, 64]⟩
abbrev S3x64 : Shape := ⟨2, ![3, 64]⟩
abbrev S1x110x64 : Shape := ⟨3, ![1, 110, 64]⟩
abbrev S110x64 : Shape := ⟨2, ![110, 64]⟩
abbrev S2x64 : Shape := ⟨2, ![2, 64]⟩
abbrev S1x111x64 : Shape := ⟨3, ![1, 111, 64]⟩
abbrev S111x64 : Shape := ⟨2, ![111, 64]⟩
abbrev S1x112x64 : Shape := ⟨3, ![1, 112, 64]⟩
abbrev S112x64 : Shape := ⟨2, ![112, 64]⟩
abbrev S1x113x64 : Shape := ⟨3, ![1, 113, 64]⟩
abbrev S113x512 : Shape := ⟨2, ![113, 512]⟩
abbrev S113x1x512 : Shape := ⟨3, ![113, 1, 512]⟩
abbrev S113x8x512 : Shape := ⟨3, ![113, 8, 512]⟩
abbrev S1x113x8x512 : Shape := ⟨4, ![1, 113, 8, 512]⟩
abbrev S16x1017x8x8x64 : Shape := ⟨5, ![16, 1017, 8, 8, 64]⟩

abbrev nBuf : Space → Nat
  | .hbm => 3
  | .vmem => 4
  | .smem => 0
  | _ => 0

abbrev bufTy : (tb : Table) → Fin (tcTables nBuf tb) → BufTy
  | .hbm, ⟨0, _⟩ => ⟨S16x1024x64, .f32⟩
  | .hbm, ⟨1, _⟩ => ⟨S16x1017x8x512, .f32⟩
  | .hbm, ⟨2, _⟩ => ⟨S16x1017x8x8x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1017x8x512, .f32⟩
  | .local _ .vmem, ⟨3, _⟩ => ⟨S1x1017x8x512, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1017x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x64_S1x1x64_0_0_0 : ∀ a, (![0, 0, 0] : Fin 3 → Nat) a + S1x1x64.size a ≤ S1x1024x64.size a
  h_S1x1x64 : 0 < S1x1x64.numel
  shapeCasts_S1x1x64_S1x64 : S1x1x64.ShapeCasts S1x64
  shapeCasts_S1x64_S1x64 : S1x64.ShapeCasts S1x64
  broadcasts_S1x64_S7x64 : S1x64.Broadcasts S7x64
  inb_S1x1024x64_S1x106x64_0_0_0 : ∀ a, (![0, 0, 0] : Fin 3 → Nat) a + S1x106x64.size a ≤ S1x1024x64.size a
  h_S1x106x64 : 0 < S1x106x64.numel
  shapeCasts_S1x106x64_S106x64 : S1x106x64.ShapeCasts S106x64
  concatenates_S7x64_S106x64_S113x64_d0 : Shape.Concatenates [S7x64, S106x64] S113x64 0
  broadcasts_S1x64_S6x64 : S1x64.Broadcasts S6x64
  inb_S1x1024x64_S1x107x64_0_0_0 : ∀ a, (![0, 0, 0] : Fin 3 → Nat) a + S1x107x64.size a ≤ S1x1024x64.size a
  h_S1x107x64 : 0 < S1x107x64.numel
  shapeCasts_S1x107x64_S107x64 : S1x107x64.ShapeCasts S107x64
  concatenates_S6x64_S107x64_S113x64_d0 : Shape.Concatenates [S6x64, S107x64] S113x64 0
  broadcasts_S1x64_S5x64 : S1x64.Broadcasts S5x64
  inb_S1x1024x64_S1x108x64_0_0_0 : ∀ a, (![0, 0, 0] : Fin 3 → Nat) a + S1x108x64.size a ≤ S1x1024x64.size a
  h_S1x108x64 : 0 < S1x108x64.numel
  shapeCasts_S1x108x64_S108x64 : S1x108x64.ShapeCasts S108x64
  concatenates_S5x64_S108x64_S113x64_d0 : Shape.Concatenates [S5x64, S108x64] S113x64 0
  broadcasts_S1x64_S4x64 : S1x64.Broadcasts S4x64
  inb_S1x1024x64_S1x109x64_0_0_0 : ∀ a, (![0, 0, 0] : Fin 3 → Nat) a + S1x109x64.size a ≤ S1x1024x64.size a
  h_S1x109x64 : 0 < S1x109x64.numel
  shapeCasts_S1x109x64_S109x64 : S1x109x64.ShapeCasts S109x64
  concatenates_S4x64_S109x64_S113x64_d0 : Shape.Concatenates [S4x64, S109x64] S113x64 0
  broadcasts_S1x64_S3x64 : S1x64.Broadcasts S3x64
  inb_S1x1024x64_S1x110x64_0_0_0 : ∀ a, (![0, 0, 0] : Fin 3 → Nat) a + S1x110x64.size a ≤ S1x1024x64.size a
  h_S1x110x64 : 0 < S1x110x64.numel
  shapeCasts_S1x110x64_S110x64 : S1x110x64.ShapeCasts S110x64
  concatenates_S3x64_S110x64_S113x64_d0 : Shape.Concatenates [S3x64, S110x64] S113x64 0
  broadcasts_S1x64_S2x64 : S1x64.Broadcasts S2x64
  inb_S1x1024x64_S1x111x64_0_0_0 : ∀ a, (![0, 0, 0] : Fin 3 → Nat) a + S1x111x64.size a ≤ S1x1024x64.size a
  h_S1x111x64 : 0 < S1x111x64.numel
  shapeCasts_S1x111x64_S111x64 : S1x111x64.ShapeCasts S111x64
  concatenates_S2x64_S111x64_S113x64_d0 : Shape.Concatenates [S2x64, S111x64] S113x64 0
  inb_S1x1024x64_S1x112x64_0_0_0 : ∀ a, (![0, 0, 0] : Fin 3 → Nat) a + S1x112x64.size a ≤ S1x1024x64.size a
  h_S1x112x64 : 0 < S1x112x64.numel
  shapeCasts_S1x112x64_S112x64 : S1x112x64.ShapeCasts S112x64
  concatenates_S1x64_S112x64_S113x64_d0 : Shape.Concatenates [S1x64, S112x64] S113x64 0
  inb_S1x1024x64_S1x113x64_0_0_0 : ∀ a, (![0, 0, 0] : Fin 3 → Nat) a + S1x113x64.size a ≤ S1x1024x64.size a
  h_S1x113x64 : 0 < S1x113x64.numel
  shapeCasts_S1x113x64_S113x64 : S1x113x64.ShapeCasts S113x64
  inb_S1x1024x64_S1x113x64_0_1_0 : ∀ a, (![0, 1, 0] : Fin 3 → Nat) a + S1x113x64.size a ≤ S1x1024x64.size a
  inb_S1x1024x64_S1x113x64_0_2_0 : ∀ a, (![0, 2, 0] : Fin 3 → Nat) a + S1x113x64.size a ≤ S1x1024x64.size a
  inb_S1x1024x64_S1x113x64_0_3_0 : ∀ a, (![0, 3, 0] : Fin 3 → Nat) a + S1x113x64.size a ≤ S1x1024x64.size a
  inb_S1x1024x64_S1x113x64_0_4_0 : ∀ a, (![0, 4, 0] : Fin 3 → Nat) a + S1x113x64.size a ≤ S1x1024x64.size a
  inb_S1x1024x64_S1x113x64_0_5_0 : ∀ a, (![0, 5, 0] : Fin 3 → Nat) a + S1x113x64.size a ≤ S1x1024x64.size a
  inb_S1x1024x64_S1x113x64_0_6_0 : ∀ a, (![0, 6, 0] : Fin 3 → Nat) a + S1x113x64.size a ≤ S1x1024x64.size a
  inb_S1x1024x64_S1x113x64_0_7_0 : ∀ a, (![0, 7, 0] : Fin 3 → Nat) a + S1x113x64.size a ≤ S1x1024x64.size a
  concatenates_S113x64_S113x64_S113x64_S113x64_S113x64_S113x64_S113x64_S113x64_S113x512_d1 : Shape.Concatenates [S113x64, S113x64, S113x64, S113x64, S113x64, S113x64, S113x64, S113x64] S113x512 1
  shapeCasts_S113x512_S113x1x512 : S113x512.ShapeCasts S113x1x512
  concatenates_S113x1x512_S113x1x512_S113x1x512_S113x1x512_S113x1x512_S113x1x512_S113x1x512_S113x1x512_S113x8x512_d1 : Shape.Concatenates [S113x1x512, S113x1x512, S113x1x512, S113x1x512, S113x1x512, S113x1x512, S113x1x512, S113x1x512] S113x8x512 1
  inb_S1x1017x8x512_S1x113x8x512_0_0_0_0 : ∀ a, (![0, 0, 0, 0] : Fin 4 → Nat) a + S1x113x8x512.size a ≤ S1x1017x8x512.size a
  h_S1x113x8x512 : 0 < S1x113x8x512.numel
  shapeCasts_S1x113x8x512_S113x8x512 : S1x113x8x512.ShapeCasts S113x8x512
  shapeCasts_S113x8x512_S1x113x8x512 : S113x8x512.ShapeCasts S1x113x8x512
  inb_S1x1024x64_S1x113x64_0_106_0 : ∀ a, (![0, 106, 0] : Fin 3 → Nat) a + S1x113x64.size a ≤ S1x1024x64.size a
  inb_S1x1024x64_S1x113x64_0_107_0 : ∀ a, (![0, 107, 0] : Fin 3 → Nat) a + S1x113x64.size a ≤ S1x1024x64.size a
  inb_S1x1024x64_S1x113x64_0_108_0 : ∀ a, (![0, 108, 0] : Fin 3 → Nat) a + S1x113x64.size a ≤ S1x1024x64.size a
  inb_S1x1024x64_S1x113x64_0_109_0 : ∀ a, (![0, 109, 0] : Fin 3 → Nat) a + S1x113x64.size a ≤ S1x1024x64.size a
  inb_S1x1024x64_S1x113x64_0_110_0 : ∀ a, (![0, 110, 0] : Fin 3 → Nat) a + S1x113x64.size a ≤ S1x1024x64.size a
  inb_S1x1024x64_S1x113x64_0_111_0 : ∀ a, (![0, 111, 0] : Fin 3 → Nat) a + S1x113x64.size a ≤ S1x1024x64.size a
  inb_S1x1024x64_S1x113x64_0_112_0 : ∀ a, (![0, 112, 0] : Fin 3 → Nat) a + S1x113x64.size a ≤ S1x1024x64.size a
  inb_S1x1024x64_S1x113x64_0_113_0 : ∀ a, (![0, 113, 0] : Fin 3 → Nat) a + S1x113x64.size a ≤ S1x1024x64.size a
  inb_S1x1024x64_S1x113x64_0_114_0 : ∀ a, (![0, 114, 0] : Fin 3 → Nat) a + S1x113x64.size a ≤ S1x1024x64.size a
  inb_S1x1024x64_S1x113x64_0_115_0 : ∀ a, (![0, 115, 0] : Fin 3 → Nat) a + S1x113x64.size a ≤ S1x1024x64.size a
  inb_S1x1024x64_S1x113x64_0_116_0 : ∀ a, (![0, 116, 0] : Fin 3 → Nat) a + S1x113x64.size a ≤ S1x1024x64.size a
  inb_S1x1024x64_S1x113x64_0_117_0 : ∀ a, (![0, 117, 0] : Fin 3 → Nat) a + S1x113x64.size a ≤ S1x1024x64.size a
  inb_S1x1024x64_S1x113x64_0_118_0 : ∀ a, (![0, 118, 0] : Fin 3 → Nat) a + S1x113x64.size a ≤ S1x1024x64.size a
  inb_S1x1024x64_S1x113x64_0_119_0 : ∀ a, (![0, 119, 0] : Fin 3 → Nat) a + S1x113x64.size a ≤ S1x1024x64.size a
  inb_S1x1024x64_S1x113x64_0_120_0 : ∀ a, (![0, 120, 0] : Fin 3 → Nat) a + S1x113x64.size a ≤ S1x1024x64.size a
  inb_S1x1017x8x512_S1x113x8x512_0_113_0_0 : ∀ a, (![0, 113, 0, 0] : Fin 4 → Nat) a + S1x113x8x512.size a ≤ S1x1017x8x512.size a
  inb_S1x1024x64_S1x113x64_0_219_0 : ∀ a, (![0, 219, 0] : Fin 3 → Nat) a + S1x113x64.size a ≤ S1x1024x64.size a
  inb_S1x1024x64_S1x113x64_0_220_0 : ∀ a, (![0, 220, 0] : Fin 3 → Nat) a + S1x113x64.size a ≤ S1x1024x64.size a
  inb_S1x1024x64_S1x113x64_0_221_0 : ∀ a, (![0, 221, 0] : Fin 3 → Nat) a + S1x113x64.size a ≤ S1x1024x64.size a
  inb_S1x1024x64_S1x113x64_0_222_0 : ∀ a, (![0, 222, 0] : Fin 3 → Nat) a + S1x113x64.size a ≤ S1x1024x64.size a
  inb_S1x1024x64_S1x113x64_0_223_0 : ∀ a, (![0, 223, 0] : Fin 3 → Nat) a + S1x113x64.size a ≤ S1x1024x64.size a
  inb_S1x1024x64_S1x113x64_0_224_0 : ∀ a, (![0, 224, 0] : Fin 3 → Nat) a + S1x113x64.size a ≤ S1x1024x64.size a
  inb_S1x1024x64_S1x113x64_0_225_0 : ∀ a, (![0, 225, 0] : Fin 3 → Nat) a + S1x113x64.size a ≤ S1x1024x64.size a
  inb_S1x1024x64_S1x113x64_0_226_0 : ∀ a, (![0, 226, 0] : Fin 3 → Nat) a + S1x113x64.size a ≤ S1x1024x64.size a
  inb_S1x1024x64_S1x113x64_0_227_0 : ∀ a, (![0, 227, 0] : Fin 3 → Nat) a + S1x113x64.size a ≤ S1x1024x64.size a
  inb_S1x1024x64_S1x113x64_0_228_0 : ∀ a, (![0, 228, 0] : Fin 3 → Nat) a + S1x113x64.size a ≤ S1x1024x64.size a
  inb_S1x1024x64_S1x113x64_0_229_0 : ∀ a, (![0, 229, 0] : Fin 3 → Nat) a + S1x113x64.size a ≤ S1x1024x64.size a
  inb_S1x1024x64_S1x113x64_0_230_0 : ∀ a, (![0, 230, 0] : Fin 3 → Nat) a + S1x113x64.size a ≤ S1x1024x64.size a
  inb_S1x1024x64_S1x113x64_0_231_0 : ∀ a, (![0, 231, 0] : Fin 3 → Nat) a + S1x113x64.size a ≤ S1x1024x64.size a
  inb_S1x1024x64_S1x113x64_0_232_0 : ∀ a, (![0, 232, 0] : Fin 3 → Nat) a + S1x113x64.size a ≤ S1x1024x64.size a
  inb_S1x1024x64_S1x113x64_0_233_0 : ∀ a, (![0, 233, 0] : Fin 3 → Nat) a + S1x113x64.size a ≤ S1x1024x64.size a
  inb_S1x1017x8x512_S1x113x8x512_0_226_0_0 : ∀ a, (![0, 226, 0, 0] : Fin 4 → Nat) a + S1x113x8x512.size a ≤ S1x1017x8x512.size a
  inb_S1x1024x64_S1x113x64_0_332_0 : ∀ a, (![0, 332, 0] : Fin 3 → Nat) a + S1x113x64.size a ≤ S1x1024x64.size a
  inb_S1x1024x64_S1x113x64_0_333_0 : ∀ a, (![0, 333, 0] : Fin 3 → Nat) a + S1x113x64.size a ≤ S1x1024x64.size a
  inb_S1x1024x64_S1x113x64_0_334_0 : ∀ a, (![0, 334, 0] : Fin 3 → Nat) a + S1x113x64.size a ≤ S1x1024x64.size a
  inb_S1x1024x64_S1x113x64_0_335_0 : ∀ a, (![0, 335, 0] : Fin 3 → Nat) a + S1x113x64.size a ≤ S1x1024x64.size a
  inb_S1x1024x64_S1x113x64_0_336_0 : ∀ a, (![0, 336, 0] : Fin 3 → Nat) a + S1x113x64.size a ≤ S1x1024x64.size a
  inb_S1x1024x64_S1x113x64_0_337_0 : ∀ a, (![0, 337, 0] : Fin 3 → Nat) a + S1x113x64.size a ≤ S1x1024x64.size a
  inb_S1x1024x64_S1x113x64_0_338_0 : ∀ a, (![0, 338, 0] : Fin 3 → Nat) a + S1x113x64.size a ≤ S1x1024x64.size a
  inb_S1x1024x64_S1x113x64_0_339_0 : ∀ a, (![0, 339, 0] : Fin 3 → Nat) a + S1x113x64.size a ≤ S1x1024x64.size a
  inb_S1x1024x64_S1x113x64_0_340_0 : ∀ a, (![0, 340, 0] : Fin 3 → Nat) a + S1x113x64.size a ≤ S1x1024x64.size a
  inb_S1x1024x64_S1x113x64_0_341_0 : ∀ a, (![0, 341, 0] : Fin 3 → Nat) a + S1x113x64.size a ≤ S1x1024x64.size a
  inb_S1x1024x64_S1x113x64_0_342_0 : ∀ a, (![0, 342, 0] : Fin 3 → Nat) a + S1x113x64.size a ≤ S1x1024x64.size a
  inb_S1x1024x64_S1x113x64_0_343_0 : ∀ a, (![0, 343, 0] : Fin 3 → Nat) a + S1x113x64.size a ≤ S1x1024x64.size a
  inb_S1x1024x64_S1x113x64_0_344_0 : ∀ a, (![0, 344, 0] : Fin 3 → Nat) a + S1x113x64.size a ≤ S1x1024x64.size a
  inb_S1x1024x64_S1x113x64_0_345_0 : ∀ a, (![0, 345, 0] : Fin 3 → Nat) a + S1x113x64.size a ≤ S1x1024x64.size a
  inb_S1x1024x64_S1x113x64_0_346_0 : ∀ a, (![0, 346, 0] : Fin 3 → Nat) a + S1x113x64.size a ≤ S1x1024x64.size a
  inb_S1x1017x8x512_S1x113x8x512_0_339_0_0 : ∀ a, (![0, 339, 0, 0] : Fin 4 → Nat) a + S1x113x8x512.size a ≤ S1x1017x8x512.size a
  inb_S1x1024x64_S1x113x64_0_445_0 : ∀ a, (![0, 445, 0] : Fin 3 → Nat) a + S1x113x64.size a ≤ S1x1024x64.size a
  inb_S1x1024x64_S1x113x64_0_446_0 : ∀ a, (![0, 446, 0] : Fin 3 → Nat) a + S1x113x64.size a ≤ S1x1024x64.size a
  inb_S1x1024x64_S1x113x64_0_447_0 : ∀ a, (![0, 447, 0] : Fin 3 → Nat) a + S1x113x64.size a ≤ S1x1024x64.size a
  inb_S1x1024x64_S1x113x64_0_448_0 : ∀ a, (![0, 448, 0] : Fin 3 → Nat) a + S1x113x64.size a ≤ S1x1024x64.size a
  inb_S1x1024x64_S1x113x64_0_449_0 : ∀ a, (![0, 449, 0] : Fin 3 → Nat) a + S1x113x64.size a ≤ S1x1024x64.size a
  inb_S1x1024x64_S1x113x64_0_450_0 : ∀ a, (![0, 450, 0] : Fin 3 → Nat) a + S1x113x64.size a ≤ S1x1024x64.size a
  inb_S1x1024x64_S1x113x64_0_451_0 : ∀ a, (![0, 451, 0] : Fin 3 → Nat) a + S1x113x64.size a ≤ S1x1024x64.size a
  inb_S1x1024x64_S1x113x64_0_452_0 : ∀ a, (![0, 452, 0] : Fin 3 → Nat) a + S1x113x64.size a ≤ S1x1024x64.size a
  inb_S1x1024x64_S1x113x64_0_453_0 : ∀ a, (![0, 453, 0] : Fin 3 → Nat) a + S1x113x64.size a ≤ S1x1024x64.size a
  inb_S1x1024x64_S1x113x64_0_454_0 : ∀ a, (![0, 454, 0] : Fin 3 → Nat) a + S1x113x64.size a ≤ S1x1024x64.size a
  inb_S1x1024x64_S1x113x64_0_455_0 : ∀ a, (![0, 455, 0] : Fin 3 → Nat) a + S1x113x64.size a ≤ S1x1024x64.size a
  inb_S1x1024x64_S1x113x64_0_456_0 : ∀ a, (![0, 456, 0] : Fin 3 → Nat) a + S1x113x64.size a ≤ S1x1024x64.size a
  inb_S1x1024x64_S1x113x64_0_457_0 : ∀ a, (![0, 457, 0] : Fin 3 → Nat) a + S1x113x64.size a ≤ S1x1024x64.size a
  inb_S1x1024x64_S1x113x64_0_458_0 : ∀ a, (![0, 458, 0] : Fin 3 → Nat) a + S1x113x64.size a ≤ S1x1024x64.size a
  inb_S1x1024x64_S1x113x64_0_459_0 : ∀ a, (![0, 459, 0] : Fin 3 → Nat) a + S1x113x64.size a ≤ S1x1024x64.size a
  inb_S1x1017x8x512_S1x113x8x512_0_452_0_0 : ∀ a, (![0, 452, 0, 0] : Fin 4 → Nat) a + S1x113x8x512.size a ≤ S1x1017x8x512.size a
  inb_S1x1024x64_S1x113x64_0_558_0 : ∀ a, (![0, 558, 0] : Fin 3 → Nat) a + S1x113x64.size a ≤ S1x1024x64.size a
  inb_S1x1024x64_S1x113x64_0_559_0 : ∀ a, (![0, 559, 0] : Fin 3 → Nat) a + S1x113x64.size a ≤ S1x1024x64.size a
  inb_S1x1024x64_S1x113x64_0_560_0 : ∀ a, (![0, 560, 0] : Fin 3 → Nat) a + S1x113x64.size a ≤ S1x1024x64.size a
  inb_S1x1024x64_S1x113x64_0_561_0 : ∀ a, (![0, 561, 0] : Fin 3 → Nat) a + S1x113x64.size a ≤ S1x1024x64.size a
  inb_S1x1024x64_S1x113x64_0_562_0 : ∀ a, (![0, 562, 0] : Fin 3 → Nat) a + S1x113x64.size a ≤ S1x1024x64.size a
  inb_S1x1024x64_S1x113x64_0_563_0 : ∀ a, (![0, 563, 0] : Fin 3 → Nat) a + S1x113x64.size a ≤ S1x1024x64.size a
  inb_S1x1024x64_S1x113x64_0_564_0 : ∀ a, (![0, 564, 0] : Fin 3 → Nat) a + S1x113x64.size a ≤ S1x1024x64.size a
  inb_S1x1024x64_S1x113x64_0_565_0 : ∀ a, (![0, 565, 0] : Fin 3 → Nat) a + S1x113x64.size a ≤ S1x1024x64.size a
  inb_S1x1024x64_S1x113x64_0_566_0 : ∀ a, (![0, 566, 0] : Fin 3 → Nat) a + S1x113x64.size a ≤ S1x1024x64.size a
  inb_S1x1024x64_S1x113x64_0_567_0 : ∀ a, (![0, 567, 0] : Fin 3 → Nat) a + S1x113x64.size a ≤ S1x1024x64.size a
  inb_S1x1024x64_S1x113x64_0_568_0 : ∀ a, (![0, 568, 0] : Fin 3 → Nat) a + S1x113x64.size a ≤ S1x1024x64.size a
  inb_S1x1024x64_S1x113x64_0_569_0 : ∀ a, (![0, 569, 0] : Fin 3 → Nat) a + S1x113x64.size a ≤ S1x1024x64.size a
  inb_S1x1024x64_S1x113x64_0_570_0 : ∀ a, (![0, 570, 0] : Fin 3 → Nat) a + S1x113x64.size a ≤ S1x1024x64.size a
  inb_S1x1024x64_S1x113x64_0_571_0 : ∀ a, (![0, 571, 0] : Fin 3 → Nat) a + S1x113x64.size a ≤ S1x1024x64.size a
  inb_S1x1024x64_S1x113x64_0_572_0 : ∀ a, (![0, 572, 0] : Fin 3 → Nat) a + S1x113x64.size a ≤ S1x1024x64.size a
  inb_S1x1017x8x512_S1x113x8x512_0_565_0_0 : ∀ a, (![0, 565, 0, 0] : Fin 4 → Nat) a + S1x113x8x512.size a ≤ S1x1017x8x512.size a
  inb_S1x1024x64_S1x113x64_0_671_0 : ∀ a, (![0, 671, 0] : Fin 3 → Nat) a + S1x113x64.size a ≤ S1x1024x64.size a
  inb_S1x1024x64_S1x113x64_0_672_0 : ∀ a, (![0, 672, 0] : Fin 3 → Nat) a + S1x113x64.size a ≤ S1x1024x64.size a
  inb_S1x1024x64_S1x113x64_0_673_0 : ∀ a, (![0, 673, 0] : Fin 3 → Nat) a + S1x113x64.size a ≤ S1x1024x64.size a
  inb_S1x1024x64_S1x113x64_0_674_0 : ∀ a, (![0, 674, 0] : Fin 3 → Nat) a + S1x113x64.size a ≤ S1x1024x64.size a
  inb_S1x1024x64_S1x113x64_0_675_0 : ∀ a, (![0, 675, 0] : Fin 3 → Nat) a + S1x113x64.size a ≤ S1x1024x64.size a
  inb_S1x1024x64_S1x113x64_0_676_0 : ∀ a, (![0, 676, 0] : Fin 3 → Nat) a + S1x113x64.size a ≤ S1x1024x64.size a
  inb_S1x1024x64_S1x113x64_0_677_0 : ∀ a, (![0, 677, 0] : Fin 3 → Nat) a + S1x113x64.size a ≤ S1x1024x64.size a
  inb_S1x1024x64_S1x113x64_0_678_0 : ∀ a, (![0, 678, 0] : Fin 3 → Nat) a + S1x113x64.size a ≤ S1x1024x64.size a
  inb_S1x1024x64_S1x113x64_0_679_0 : ∀ a, (![0, 679, 0] : Fin 3 → Nat) a + S1x113x64.size a ≤ S1x1024x64.size a
  inb_S1x1024x64_S1x113x64_0_680_0 : ∀ a, (![0, 680, 0] : Fin 3 → Nat) a + S1x113x64.size a ≤ S1x1024x64.size a
  inb_S1x1024x64_S1x113x64_0_681_0 : ∀ a, (![0, 681, 0] : Fin 3 → Nat) a + S1x113x64.size a ≤ S1x1024x64.size a
  inb_S1x1024x64_S1x113x64_0_682_0 : ∀ a, (![0, 682, 0] : Fin 3 → Nat) a + S1x113x64.size a ≤ S1x1024x64.size a
  inb_S1x1024x64_S1x113x64_0_683_0 : ∀ a, (![0, 683, 0] : Fin 3 → Nat) a + S1x113x64.size a ≤ S1x1024x64.size a
  inb_S1x1024x64_S1x113x64_0_684_0 : ∀ a, (![0, 684, 0] : Fin 3 → Nat) a + S1x113x64.size a ≤ S1x1024x64.size a
  inb_S1x1024x64_S1x113x64_0_685_0 : ∀ a, (![0, 685, 0] : Fin 3 → Nat) a + S1x113x64.size a ≤ S1x1024x64.size a
  inb_S1x1017x8x512_S1x113x8x512_0_678_0_0 : ∀ a, (![0, 678, 0, 0] : Fin 4 → Nat) a + S1x113x8x512.size a ≤ S1x1017x8x512.size a
  inb_S1x1024x64_S1x113x64_0_784_0 : ∀ a, (![0, 784, 0] : Fin 3 → Nat) a + S1x113x64.size a ≤ S1x1024x64.size a
  inb_S1x1024x64_S1x113x64_0_785_0 : ∀ a, (![0, 785, 0] : Fin 3 → Nat) a + S1x113x64.size a ≤ S1x1024x64.size a
  inb_S1x1024x64_S1x113x64_0_786_0 : ∀ a, (![0, 786, 0] : Fin 3 → Nat) a + S1x113x64.size a ≤ S1x1024x64.size a
  inb_S1x1024x64_S1x113x64_0_787_0 : ∀ a, (![0, 787, 0] : Fin 3 → Nat) a + S1x113x64.size a ≤ S1x1024x64.size a
  inb_S1x1024x64_S1x113x64_0_788_0 : ∀ a, (![0, 788, 0] : Fin 3 → Nat) a + S1x113x64.size a ≤ S1x1024x64.size a
  inb_S1x1024x64_S1x113x64_0_789_0 : ∀ a, (![0, 789, 0] : Fin 3 → Nat) a + S1x113x64.size a ≤ S1x1024x64.size a
  inb_S1x1024x64_S1x113x64_0_790_0 : ∀ a, (![0, 790, 0] : Fin 3 → Nat) a + S1x113x64.size a ≤ S1x1024x64.size a
  inb_S1x1024x64_S1x113x64_0_791_0 : ∀ a, (![0, 791, 0] : Fin 3 → Nat) a + S1x113x64.size a ≤ S1x1024x64.size a
  inb_S1x1024x64_S1x113x64_0_792_0 : ∀ a, (![0, 792, 0] : Fin 3 → Nat) a + S1x113x64.size a ≤ S1x1024x64.size a
  inb_S1x1024x64_S1x113x64_0_793_0 : ∀ a, (![0, 793, 0] : Fin 3 → Nat) a + S1x113x64.size a ≤ S1x1024x64.size a
  inb_S1x1024x64_S1x113x64_0_794_0 : ∀ a, (![0, 794, 0] : Fin 3 → Nat) a + S1x113x64.size a ≤ S1x1024x64.size a
  inb_S1x1024x64_S1x113x64_0_795_0 : ∀ a, (![0, 795, 0] : Fin 3 → Nat) a + S1x113x64.size a ≤ S1x1024x64.size a
  inb_S1x1024x64_S1x113x64_0_796_0 : ∀ a, (![0, 796, 0] : Fin 3 → Nat) a + S1x113x64.size a ≤ S1x1024x64.size a
  inb_S1x1024x64_S1x113x64_0_797_0 : ∀ a, (![0, 797, 0] : Fin 3 → Nat) a + S1x113x64.size a ≤ S1x1024x64.size a
  inb_S1x1024x64_S1x113x64_0_798_0 : ∀ a, (![0, 798, 0] : Fin 3 → Nat) a + S1x113x64.size a ≤ S1x1024x64.size a
  inb_S1x1017x8x512_S1x113x8x512_0_791_0_0 : ∀ a, (![0, 791, 0, 0] : Fin 4 → Nat) a + S1x113x8x512.size a ≤ S1x1017x8x512.size a
  inb_S1x1024x64_S1x113x64_0_897_0 : ∀ a, (![0, 897, 0] : Fin 3 → Nat) a + S1x113x64.size a ≤ S1x1024x64.size a
  inb_S1x1024x64_S1x113x64_0_898_0 : ∀ a, (![0, 898, 0] : Fin 3 → Nat) a + S1x113x64.size a ≤ S1x1024x64.size a
  inb_S1x1024x64_S1x113x64_0_899_0 : ∀ a, (![0, 899, 0] : Fin 3 → Nat) a + S1x113x64.size a ≤ S1x1024x64.size a
  inb_S1x1024x64_S1x113x64_0_900_0 : ∀ a, (![0, 900, 0] : Fin 3 → Nat) a + S1x113x64.size a ≤ S1x1024x64.size a
  inb_S1x1024x64_S1x113x64_0_901_0 : ∀ a, (![0, 901, 0] : Fin 3 → Nat) a + S1x113x64.size a ≤ S1x1024x64.size a
  inb_S1x1024x64_S1x113x64_0_902_0 : ∀ a, (![0, 902, 0] : Fin 3 → Nat) a + S1x113x64.size a ≤ S1x1024x64.size a
  inb_S1x1024x64_S1x113x64_0_903_0 : ∀ a, (![0, 903, 0] : Fin 3 → Nat) a + S1x113x64.size a ≤ S1x1024x64.size a
  inb_S1x1024x64_S1x113x64_0_904_0 : ∀ a, (![0, 904, 0] : Fin 3 → Nat) a + S1x113x64.size a ≤ S1x1024x64.size a
  inb_S1x1024x64_S1x113x64_0_905_0 : ∀ a, (![0, 905, 0] : Fin 3 → Nat) a + S1x113x64.size a ≤ S1x1024x64.size a
  inb_S1x1024x64_S1x113x64_0_906_0 : ∀ a, (![0, 906, 0] : Fin 3 → Nat) a + S1x113x64.size a ≤ S1x1024x64.size a
  inb_S1x1024x64_S1x113x64_0_907_0 : ∀ a, (![0, 907, 0] : Fin 3 → Nat) a + S1x113x64.size a ≤ S1x1024x64.size a
  inb_S1x1024x64_S1x113x64_0_908_0 : ∀ a, (![0, 908, 0] : Fin 3 → Nat) a + S1x113x64.size a ≤ S1x1024x64.size a
  inb_S1x1024x64_S1x113x64_0_909_0 : ∀ a, (![0, 909, 0] : Fin 3 → Nat) a + S1x113x64.size a ≤ S1x1024x64.size a
  inb_S1x1024x64_S1x113x64_0_910_0 : ∀ a, (![0, 910, 0] : Fin 3 → Nat) a + S1x113x64.size a ≤ S1x1024x64.size a
  inb_S1x1024x64_S1x113x64_0_911_0 : ∀ a, (![0, 911, 0] : Fin 3 → Nat) a + S1x113x64.size a ≤ S1x1024x64.size a
  inb_S1x1017x8x512_S1x113x8x512_0_904_0_0 : ∀ a, (![0, 904, 0, 0] : Fin 4 → Nat) a + S1x113x8x512.size a ≤ S1x1017x8x512.size a
  shapeCasts_S16x1017x8x512_S16x1017x8x8x64 : S16x1017x8x512.ShapeCasts S16x1017x8x8x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x1024x64.size a
  hwx0_0 : ∀ i : grid0.Coords, EltTy.bits .f32 = 32 ∨ (Rect.block (s := S16x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1017x8x512.size a ≤ S16x1017x8x512.size a
  hwx0_1 : ∀ i : grid0.Coords, EltTy.bits .f32 = 32 ∨ (Rect.block (s := S16x1017x8x512) S1x1017x8x512.size (cc0_transform_1 i) (hinb0_1 i)).WholeWords (EltTy.packing .f32)

variable [Facts₀]

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1017x8x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1024x64 : Shape := ⟨3, ![16, 1024, 64]⟩
abbrev S16x1x64 : Shape := ⟨3, ![16, 1, 64]⟩
abbrev S16x1x7x64 : Shape := ⟨4, ![16, 1, 7, 64]⟩
abbrev S16x7x64 : Shape := ⟨3, ![16, 7, 64]⟩
abbrev S16x1031x64 : Shape := ⟨3, ![16, 1031, 64]⟩
abbrev S1017 : Shape := ⟨1, ![1017]⟩
abbrev S1017x1x1 : Shape := ⟨3, ![1017, 1, 1]⟩
abbrev S8 : Shape := ⟨1, ![8]⟩
abbrev S1x8x1 : Shape := ⟨3, ![1, 8, 1]⟩
abbrev S1017x8x1 : Shape := ⟨3, ![1017, 8, 1]⟩
abbrev S1x1x8 : Shape := ⟨3, ![1, 1, 8]⟩
abbrev S1017x8x8 : Shape := ⟨3, ![1017, 8, 8]⟩
abbrev S_ : Shape := ⟨0, ![]⟩
abbrev S1017x8x8x1 : Shape := ⟨4, ![1017, 8, 8, 1]⟩
abbrev S16x1017x8x8x64 : Shape := ⟨5, ![16, 1017, 8, 8, 64]⟩

abbrev nBuf : Space → Nat
  | .hbm => 26
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S16x1x64, .f32⟩
  | .hbm, ⟨2, _⟩ => ⟨S16x1x7x64, .f32⟩
  | .hbm, ⟨3, _⟩ => ⟨S16x7x64, .f32⟩
  | .hbm, ⟨4, _⟩ => ⟨S16x1031x64, .f32⟩
  | .hbm, ⟨5, _⟩ => ⟨S1017, .i32⟩
  | .hbm, ⟨6, _⟩ => ⟨S1017x1x1, .i32⟩
  | .hbm, ⟨7, _⟩ => ⟨S8, .i32⟩
  | .hbm, ⟨8, _⟩ => ⟨S1x8x1, .i32⟩
  | .hbm, ⟨9, _⟩ => ⟨S1017x8x1, .i32⟩
  | .hbm, ⟨10, _⟩ => ⟨S1017x8x1, .i32⟩
  | .hbm, ⟨11, _⟩ => ⟨S1017x8x1, .i32⟩
  | .hbm, ⟨12, _⟩ => ⟨S8, .i32⟩
  | .hbm, ⟨13, _⟩ => ⟨S1x1x8, .i32⟩
  | .hbm, ⟨14, _⟩ => ⟨S1017x8x8, .i32⟩
  | .hbm, ⟨15, _⟩ => ⟨S1017x8x8, .i32⟩
  | .hbm, ⟨16, _⟩ => ⟨S1017x8x8, .i32⟩
  | .hbm, ⟨17, _⟩ => ⟨S_, .i32⟩
  | .hbm, ⟨18, _⟩ => ⟨S1017x8x8, .i32⟩
  | .hbm, ⟨19, _⟩ => ⟨S1017x8x8, .i1⟩
  | .hbm, ⟨20, _⟩ => ⟨S_, .i32⟩
  | .hbm, ⟨21, _⟩ => ⟨S1017x8x8, .i32⟩
  | .hbm, ⟨22, _⟩ => ⟨S1017x8x8, .i32⟩
  | .hbm, ⟨23, _⟩ => ⟨S1017x8x8, .i32⟩
  | .hbm, ⟨24, _⟩ => ⟨S1017x8x8x1, .i32⟩
  | .hbm, ⟨25, _⟩ => ⟨S16x1017x8x8x64, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]

class Facts₀ : Prop where
  slices_S16x1024x64_S16x1x64_0_0_0 : S16x1024x64.Slices ![0, 0, 0] S16x1x64
  bcast_S16x1x64_S16x1x7x64_0_1_3 : S16x1x64.BroadcastsInDim S16x1x7x64 (![0, 1, 3] : Fin 3 → Fin S16x1x7x64.rank)
  shapeCasts_S16x1x7x64_S16x7x64 : S16x1x7x64.ShapeCasts S16x7x64
  concatenates_S16x7x64_S16x1024x64_S16x1031x64_d1 : Shape.Concatenates [S16x7x64, S16x1024x64] S16x1031x64 1
  bcast_S1017_S1017x1x1_0 : S1017.BroadcastsInDim S1017x1x1 (![0] : Fin 1 → Fin S1017x1x1.rank)
  bcast_S8_S1x8x1_1 : S8.BroadcastsInDim S1x8x1 (![1] : Fin 1 → Fin S1x8x1.rank)
  bcast_S1017x1x1_S1017x8x1_0_1_2 : S1017x1x1.BroadcastsInDim S1017x8x1 (![0, 1, 2] : Fin 3 → Fin S1017x8x1.rank)
  bcast_S1x8x1_S1017x8x1_0_1_2 : S1x8x1.BroadcastsInDim S1017x8x1 (![0, 1, 2] : Fin 3 → Fin S1017x8x1.rank)
  bcast_S8_S1x1x8_2 : S8.BroadcastsInDim S1x1x8 (![2] : Fin 1 → Fin S1x1x8.rank)
  bcast_S1017x8x1_S1017x8x8_0_1_2 : S1017x8x1.BroadcastsInDim S1017x8x8 (![0, 1, 2] : Fin 3 → Fin S1017x8x8.rank)
  bcast_S1x1x8_S1017x8x8_0_1_2 : S1x1x8.BroadcastsInDim S1017x8x8 (![0, 1, 2] : Fin 3 → Fin S1017x8x8.rank)
  bcast_S_S1017x8x8 : S_.BroadcastsInDim S1017x8x8 (![] : Fin 0 → Fin S1017x8x8.rank)
  bcast_S1017x8x8_S1017x8x8x1_0_1_2 : S1017x8x8.BroadcastsInDim S1017x8x8x1 (![0, 1, 2] : Fin 3 → Fin S1017x8x8x1.rank)
  gather_S16x1031x64_S1017x8x8x1_S16x1017x8x8x64_04_1_n_n_1_3_16164_wf : GatherDims.WF S16x1031x64 S1017x8x8x1 S16x1017x8x8x64 [0, 4] [1] [] [1] [] 3 ![16, 1, 64]

variable [Facts₀]

def gather_S16x1031x64_S1017x8x8x1_S16x1017x8x8x64_04_1_n_n_1_3_16164 : GatherDims S16x1031x64 S1017x8x8x1 S16x1017x8x8x64 where
  offsetDims := [0, 4]
  collapsedSliceDims := [1]
  operandBatchingDims := []
  startIndicesBatchingDims := []
  startIndexMap := [1]
  indexVectorDim := 3
  sliceSizes := ![16, 1, 64]
  wf := gather_S16x1031x64_S1017x8x8x1_S16x1017x8x8x64_04_1_n_n_1_3_16164_wf

class Facts : Prop extends Facts₀ where

variable [Facts]
-- ==== Proof.Spec.lean ====
/-
  The specification both programs are proved against: every output entry is a copy of one input entry.

  Write `fix` for the sequence of rows of one batch padded on the left with seven copies of its row 0, so that
  position `n` of `fix` holds row `n - 7` of the input, and row `0` for `n < 7` (the truncated subtraction
  says exactly this).  The result holds, for every start `j`, the 8 x 8 table of rows `fix (j + m + p)`:

      out (b, j, m, p, d) = x (b, (j + m + p) - 7, d).

  The largest position read is 1016 + 7 + 7 = 1030, whose row is 1023, the last one; the `min` below only makes
  the row a total function of the position and is never active on an index of the result.
-/
import Idealize.ShloMosaic.Lib.ValueIdx

namespace Cert.Windows

open Idealize.ShloMosaic Idealize.ShloMosaic.ValueIdx

/-- The input row held at position `n` of the left-padded sequence: the seven pad positions repeat row 0. -/
def srcRow (n : Nat) : Fin 1024 := ⟨min (n - 7) 1023, by omega⟩

theorem srcRow_val (n : Nat) : (srcRow n).val = min (n - 7) 1023 := rfl

/-- On the positions the result reads, the row is the position less seven (truncated at 0). -/
theorem srcRow_val_of_le {n : Nat} (h : n ≤ 1030) : (srcRow n).val = n - 7 := by
  rw [srcRow_val]; omega

/-- Lane `64 * p + d` of a 512-wide row: the kernel keeps the table's last two axes `(p, d)` merged on the lanes. -/
def lane (p : Fin 8) (d : Fin 64) : Fin 512 := ⟨64 * p.val + d.val, by omega⟩

theorem lane_val (p : Fin 8) (d : Fin 64) : (lane p d).val = 64 * p.val + d.val := rfl

/-- The windows of the padded sequence, as one function of the input array. -/
def windows {α : Type} (x : (⟨3, ![16, 1024, 64]⟩ : Shape).Idx → α) : (⟨5, ![16, 1017, 8, 8, 64]⟩ : Shape).Idx → α :=
  fun i => x (ix3 (⟨(i 0).val, (i 0).isLt⟩ : Fin 16) (srcRow ((i 1).val + (i 2).val + (i 3).val))
    (⟨(i 4).val, (i 4).isLt⟩ : Fin 64))

theorem windows_apply {α : Type} (x : (⟨3, ![16, 1024, 64]⟩ : Shape).Idx → α)
    (b : Fin 16) (j : Fin 1017) (m p : Fin 8) (d : Fin 64) :
    windows x (ix5 b j m p d) = x (ix3 b (srcRow (j.val + m.val + p.val)) d) := rfl

end Cert.Windows
-- ==== Proof.RefValue.lean ====
/-
  The reference program's result, read index by index, is the table of windows of the left-padded input.

  The reference builds `fix`, the input with seven copies of row 0 put in front along axis 1 (a slice of row 0,
  broadcast to seven rows, joined to the input), and an integer table `idx (j, m, p) = j + m + p` (three one-axis
  counters broadcast and added as 32-bit words).  A guard "if the index is negative add 1031" follows the table; the
  sum is at most 1016 + 7 + 7 = 1030, so as a signed word it is never negative and the guard is never taken.  One
  gather then reads `fix` at row `idx (j, m, p)` for every batch `b` and channel `d`:

      result (b, j, m, p, d) = fix (b, j + m + p, d) = x (b, (j + m + p) - 7, d),

  the subtraction truncated at 0, because positions 0..6 of `fix` all hold row 0.
-/
import proofs.«148824_j55_2_alg».proof.Proof.Gen.ReferenceIdeal.Read
import proofs.«148824_j55_2_alg».proof.Proof.Spec

noncomputable section

namespace Cert.ReferenceIdeal.RefValue

open Cert.ReferenceIdeal Cert.ReferenceIdeal.Gen Cert.ReferenceIdeal.Read Idealize.ShloMosaic
  Idealize.ShloMosaic.ValueIdx Cert.Windows

variable {F : FTy → Type} [FloatOps F]

/-! ## The padded array at an index -/

/-- Position `n` of the padded array holds input row `n - 7`, and row 0 on the seven pad positions. -/
theorem fixed_apply (x : (⟨S16x1024x64, .f32⟩ : BufTy).Contents (Elt F)) (b : Fin 16) (n : Fin 1031) (d : Fin 64) :
    val_main_v3 (F := F) x (ix3 b n d) = x (ix3 b (srcRow n.val) d) := by
  have hb : b.val < 16 := b.isLt
  have hn : n.val < 1031 := n.isLt
  have hd : d.val < 64 := d.isLt
  unfold val_main_v3
  by_cases h : n.val < 7
  · -- a pad position: the first piece, whose every row is row 0 of the input
    rw [concatenate_pair_apply_left 1 _ x concatenates_S16x7x64_S16x1024x64_S16x1031x64_d1 (ix3 b n d) rfl
      (ix3 b (⟨n.val, h⟩ : Fin 7) d) (fun a => match a with | ⟨0, _⟩ => rfl | ⟨1, _⟩ => rfl | ⟨2, _⟩ => rfl)]
    rw [val_main_v2_apply, val_main_v1_apply, val_main_v0_apply]
    refine congrArg x (funext fun a => Fin.ext ?_)
    match a with
    | ⟨0, _⟩ => show ((b.val * 7 + n.val) * 64 + d.val) / 448 = b.val; omega
    | ⟨1, _⟩ => show 0 = (srcRow n.val).val; rw [srcRow_val]; omega
    | ⟨2, _⟩ => show ((b.val * 7 + n.val) * 64 + d.val) % 64 = d.val; omega
  · -- past the pad: the second piece, the input itself, seven rows earlier
    rw [concatenate_pair_apply_right 1 _ x concatenates_S16x7x64_S16x1024x64_S16x1031x64_d1 (ix3 b n d) rfl rfl
      (ix3 b (⟨n.val - 7, by omega⟩ : Fin 1024) d)
      (fun a => match a with
        | ⟨0, _⟩ => fun _ => rfl
        | ⟨1, _⟩ => fun hne => absurd rfl hne
        | ⟨2, _⟩ => fun _ => rfl)
      (by show n.val - 7 + 7 = n.val; omega)]
    refine congrArg x (funext fun a => Fin.ext ?_)
    match a with
    | ⟨0, _⟩ => rfl
    | ⟨1, _⟩ => show n.val - 7 = (srcRow n.val).val; rw [srcRow_val_of_le (by omega)]
    | ⟨2, _⟩ => rfl

/-! ## The index table at an index -/

/-- A position of the padded array, as a 32-bit word read signed, is itself: it is far below `2 ^ 31`. -/
theorem toInt_ofNat_of_le {n : Nat} (h : n ≤ 1030) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- Such a word is not negative: the signed comparison with zero answers "no". -/
theorem slt_zero_of_le {n : Nat} (h : n ≤ 1030) : IntOp.cmpi .slt (BitVec.ofNat 32 n) 0#32 = 0#1 := by
  have e : (BitVec.ofNat 32 n).slt 0#32 = false := by
    rw [BitVec.slt_eq_decide, toInt_ofNat_of_le h]
    exact decide_eq_false (by show ¬ ((n : Int) < 0); omega)
  show BitVec.ofBool ((BitVec.ofNat 32 n).slt 0#32) = 0#1
  rw [e]; rfl

/-- The sum of the three counters at `(j, m, p)`: the word of `j + m + p` (32-bit addition of small numbers does
    not wrap, and in any case the word of a sum is the sum of the words). -/
theorem sum_apply (j : Fin 1017) (m p : Fin 8) :
    val_main_v15 (F := F) (ix3 j m p) = BitVec.ofNat 32 (j.val + m.val + p.val) := by
  rw [val_main_v15_apply, val_main_v13_apply, val_main_v14_apply, val_main_v10_apply, val_main_v12_apply,
    val_main_v11_apply, val_main_v8_apply, val_main_v9_apply, val_main_v5_apply, val_main_v7_apply,
    val_main_v4_apply, val_main_v6_apply]
  show IntOp.addi (IntOp.addi (BitVec.ofNat 32 j.val) (BitVec.ofNat 32 m.val)) (BitVec.ofNat 32 p.val) = _
  unfold IntOp.addi
  rw [BitVec.ofNat_add, BitVec.ofNat_add]

/-- The start index the gather is handed at `(j, m, p)`: the word of `j + m + p`. The "negative index" guard is
    not taken, since `j + m + p ≤ 1030`. -/
theorem idx_apply (j : Fin 1017) (m p : Fin 8) (z : Fin 1) :
    val_main_v21 (F := F) (ix4 j m p z) = BitVec.ofNat 32 (j.val + m.val + p.val) := by
  have hj : j.val < 1017 := j.isLt
  have hm : m.val < 8 := m.isLt
  have hp : p.val < 8 := p.isLt
  have e : idx_main_v21 (ix4 j m p z) = ix3 j m p :=
    funext fun a => Fin.ext (by match a with | ⟨0, _⟩ => rfl | ⟨1, _⟩ => rfl | ⟨2, _⟩ => rfl)
  rw [val_main_v21_apply, e, val_main_v20_apply, val_main_v17_apply, val_main_v16_apply, val_main_c_apply,
    sum_apply, slt_zero_of_le (by omega), select_zero]

/-! ## The gather at an index -/

section Gather
variable {α : Type}

/-- The gather's dimension numbers: operand axis 1 is indexed (and collapsed, one row per start index); operand
    axes 0 and 2 are copied whole to result axes 0 and 4; result axes 1, 2, 3 run over the index table. -/
local notation "G" => gather_S16x1031x64_S1017x8x8x1_S16x1017x8x8x64_04_1_n_n_1_3_16164

/-- THE GATHER READ AT `(b, j, m, p, d)`: the operand at batch `b`, channel `d`, and the row the start index at
    `(j, m, p)` names, when that index read signed is a row `n` of the operand (so the clamp into
    `[0, 1030]` does nothing). -/
theorem gather_apply (x : S16x1031x64.Idx → α) (idx : IVec S1017x8x8x1 32)
    (b : Fin 16) (j : Fin 1017) (m p : Fin 8) (d : Fin 64) (n : Fin 1031)
    (hn : (idx (ix4 j m p (0 : Fin 1))).toInt.toNat = n.val) :
    Host.gather G x idx (ix5 b j m p d) = x (ix3 b n d) := by
  have hlt : n.val < 1031 := n.isLt
  unfold Host.gather
  refine congrArg x (funext fun a => Fin.ext ?_)
  show GatherDims.start G (ix5 b j m p d) idx a + GatherDims.batchCoord G (ix5 b j m p d) a
    + GatherDims.offCoord G (ix5 b j m p d) a = _
  rw [GatherDims.batchCoord_eq_zero _ _ _ List.not_mem_nil, Nat.add_zero]
  match a with
  | ⟨0, h0⟩ =>
    -- a copied axis: no start index, the offset coordinate is result coordinate 0
    have h1 : (⟨0, h0⟩ : Fin S16x1031x64.rank) ∉ GatherDims.startIndexMap G :=
      (by decide : (⟨0, by decide⟩ : Fin S16x1031x64.rank) ∉ GatherDims.startIndexMap G)
    have h2 : (⟨0, h0⟩ : Fin S16x1031x64.rank) ∈ GatherDims.sKept G :=
      (by decide : (⟨0, by decide⟩ : Fin S16x1031x64.rank) ∈ GatherDims.sKept G)
    unfold GatherDims.start GatherDims.offCoord
    rw [dif_neg h1, dif_pos h2, Nat.zero_add]
    rfl
  | ⟨1, h0⟩ =>
    -- the indexed axis: the start index read signed, clamped into `[0, 1031 - 1]`; no offset (slice size 1)
    have h1 : (⟨1, h0⟩ : Fin S16x1031x64.rank) ∈ GatherDims.startIndexMap G :=
      (by decide : (⟨1, by decide⟩ : Fin S16x1031x64.rank) ∈ GatherDims.startIndexMap G)
    have h2 : (⟨1, h0⟩ : Fin S16x1031x64.rank) ∉ GatherDims.sKept G :=
      (by decide : (⟨1, by decide⟩ : Fin S16x1031x64.rank) ∉ GatherDims.sKept G)
    rw [GatherDims.offCoord_eq_zero _ _ _ h2, Nat.add_zero]
    unfold GatherDims.start
    rw [dif_pos h1]
    have hsi : GatherDims.siIdx G (ix5 b j m p d) ⟨List.idxOf (⟨1, h0⟩ : Fin S16x1031x64.rank) (GatherDims.startIndexMap G),
        List.idxOf_lt_length_iff.2 h1⟩ = ix4 j m p (0 : Fin 1) := by
      funext c; refine Fin.ext ?_
      match c with
      | ⟨0, _⟩ => rfl
      | ⟨1, _⟩ => rfl
      | ⟨2, _⟩ => rfl
      | ⟨3, _⟩ => rfl
    rw [hsi, hn]
    show min n.val (1031 - 1) = n.val
    omega
  | ⟨2, h0⟩ =>
    -- the other copied axis: result coordinate 4
    have h1 : (⟨2, h0⟩ : Fin S16x1031x64.rank) ∉ GatherDims.startIndexMap G :=
      (by decide : (⟨2, by decide⟩ : Fin S16x1031x64.rank) ∉ GatherDims.startIndexMap G)
    have h2 : (⟨2, h0⟩ : Fin S16x1031x64.rank) ∈ GatherDims.sKept G :=
      (by decide : (⟨2, by decide⟩ : Fin S16x1031x64.rank) ∈ GatherDims.sKept G)
    unfold GatherDims.start GatherDims.offCoord
    rw [dif_neg h1, dif_pos h2, Nat.zero_add]
    rfl

end Gather

/-! ## The result -/

/-- The reference's result is the table of windows of the padded input. -/
theorem result_eq (x : (⟨S16x1024x64, .f32⟩ : BufTy).Contents (Elt F)) :
    val_main_v22 (F := F) x = windows x := by
  funext i
  obtain ⟨b, j, m, p, d, rfl⟩ : ∃ (b : Fin 16) (j : Fin 1017) (m p : Fin 8) (d : Fin 64), i = ix5 b j m p d :=
    ⟨i 0, i 1, i 2, i 3, i 4, eq_ix5 i⟩
  have hj : j.val < 1017 := j.isLt
  have hm : m.val < 8 := m.isLt
  have hp : p.val < 8 := p.isLt
  rw [windows_apply]
  unfold val_main_v22
  rw [gather_apply (val_main_v3 (F := F) x) (val_main_v21 (F := F)) b j m p d
    (⟨j.val + m.val + p.val, by omega⟩ : Fin 1031)
    (by rw [idx_apply, toInt_ofNat_of_le (by omega)]; rfl)]
  exact fixed_apply x b _ d

end Cert.ReferenceIdeal.RefValue

end
-- ==== Proof.WindowPieces.lean ====
/-
  How the body of one grid point assembles its block, one operation at a time.

  The body never computes: it reads runs of 113 consecutive rows of the batch's input block, lays eight of them side
  by side on the lanes, stacks eight such rows, and stores the stack.  Write `fix n` for the input row held at
  position `n` of the left-padded sequence (`srcRow`).  Four predicates say what an intermediate value holds:

    Slice x n v : v (r, d)            = x (0, fix (n + r), d)              113 consecutive positions from n
    Row   x n v : v (r, 64 p + d)     = x (0, fix (n + p + r), d)          eight slices n, n+1, …, n+7 on the lanes
    Row3  x n v : the same with a unit middle axis
    Block x n v : v (0, r, m, 64 p + d) = x (0, fix (n + m + p + r), d)    eight rows n, n+1, …, n+7 stacked

  and one lemma per operation carries them through: a load of 113 rows is a slice; copies of row 0 joined above the first
  rows are the slices that start inside the pad; eight slices joined on the lanes are a row; eight rows stacked are a block.
-/
import proofs.«148824_j55_2_alg».proof.Proof.Spec
import Idealize.ShloMosaic.Lib.Pipeline.Value
import Idealize.ShloMosaic.Lib.ValueIdx

namespace Cert.Windows

open Idealize.ShloMosaic Idealize.ShloMosaic.ValueIdx

variable {Val : EltTy → Type} {e : EltTy}

/-- One batch's block of the input. -/
abbrev SIn : Shape := ⟨3, ![1, 1024, 64]⟩
/-- 113 rows of 64 entries. -/
abbrev SSlice : Shape := ⟨2, ![113, 64]⟩
/-- 113 rows of eight slices' entries. -/
abbrev SRow : Shape := ⟨2, ![113, 512]⟩
abbrev SRow3 : Shape := ⟨3, ![113, 1, 512]⟩
abbrev STile : Shape := ⟨3, ![113, 8, 512]⟩
/-- What one store writes. -/
abbrev SBlock : Shape := ⟨4, ![1, 113, 8, 512]⟩

def Slice (x : SIn.Idx → Val e) (n : Nat) (v : SSlice.Idx → Val e) : Prop :=
  ∀ (r : Fin 113) (d : Fin 64), v (ix2 r d) = x (ix3 (0 : Fin 1) (srcRow (n + r.val)) d)

def Row (x : SIn.Idx → Val e) (n : Nat) (v : SRow.Idx → Val e) : Prop :=
  ∀ (r : Fin 113) (p : Fin 8) (d : Fin 64), v (ix2 r (lane p d)) = x (ix3 (0 : Fin 1) (srcRow (n + p.val + r.val)) d)

def Row3 (x : SIn.Idx → Val e) (n : Nat) (v : SRow3.Idx → Val e) : Prop :=
  ∀ (r : Fin 113) (p : Fin 8) (d : Fin 64),
    v (ix3 r (0 : Fin 1) (lane p d)) = x (ix3 (0 : Fin 1) (srcRow (n + p.val + r.val)) d)

def Block (x : SIn.Idx → Val e) (n : Nat) (v : SBlock.Idx → Val e) : Prop :=
  ∀ (r : Fin 113) (m p : Fin 8) (d : Fin 64),
    v (ix4 (0 : Fin 1) r m (lane p d)) = x (ix3 (0 : Fin 1) (srcRow (n + m.val + p.val + r.val)) d)

/-- A load of rows `k, …, k + 112` of the block, its unit axis dropped, holds positions `k + 7, …` of the padded
    sequence: past the pad, position `n` is row `n - 7`. -/
theorem slice_of_load (x : SIn.Idx → Val e) (off : Fin 3 → Nat)
    (inb : ∀ a, off a + (![1, 113, 64] : Fin 3 → Nat) a ≤ SIn.size a)
    (h : (⟨3, ![1, 113, 64]⟩ : Shape).ShapeCasts SSlice) (n : Nat)
    (h0 : off 0 = 0) (h1 : off 1 + 7 = n) (h2 : off 2 = 0) :
    Slice x n (shapeCast SSlice (View.ld x (Rect.unit (s := SIn) off ![1, 113, 64] inb)) h) := by
  intro r d
  have hb : off 1 + 113 ≤ 1024 := inb 1
  refine (shapeCast_dropUnit_apply ![113, 64] _ h (ix2 r d)).trans ?_
  show x ((Rect.unit (s := SIn) off ![1, 113, 64] inb).idx (Fin.cons ⟨0, Nat.one_pos⟩ (ix2 r d))) = _
  refine congrArg x (funext fun a => Fin.ext ?_)
  match a with
  | ⟨0, _⟩ => show off 0 + 1 * 0 = 0; omega
  | ⟨1, _⟩ => show off 1 + 1 * r.val = min (n + r.val - 7) 1023; omega
  | ⟨2, _⟩ => show off 2 + 1 * d.val = d.val; omega

/-! ## Eight slices side by side on the lanes -/

/-- Lane `64 k + d` of a join of 64-wide pieces on the lanes reads piece `k` at lane `d`. -/
theorem lanes_piece (xs : List ((s : Shape) × (s.Idx → Val e))) (h : Shape.Concatenates (xs.map (·.1)) SRow 1)
    (k : Nat) (hk : k < xs.length) (a : SSlice.Idx → Val e) (hxk : xs[k] = ⟨SSlice, a⟩)
    (hpre : (((xs.take k).map (·.1)).map fun s => if h : s.rank = SRow.rank then s.size ((1 : Fin SRow.rank).cast h.symm) else 0).sum = 64 * k)
    (r : Fin 113) (p : Fin 8) (hp : p.val = k) (d : Fin 64) :
    concatenate SRow 1 xs h (ix2 r (lane p d)) = a (ix2 r d) :=
  concatenate_apply_piece 1 xs h (ix2 r (lane p d)) k hk SSlice a hxk rfl (64 * k) hpre (ix2 r d)
    (fun b hb => match b with
      | ⟨0, _⟩ => rfl
      | ⟨1, _⟩ => absurd rfl hb)
    (by show 64 * k + d.val = 64 * p.val + d.val; rw [hp])

/-- Slices `n, n + 1, …, n + 7` joined on the lanes are the row `n`. -/
theorem row_of_slices (x : SIn.Idx → Val e) (n : Nat) (a0 a1 a2 a3 a4 a5 a6 a7 : SSlice.Idx → Val e)
    (h : Shape.Concatenates [SSlice, SSlice, SSlice, SSlice, SSlice, SSlice, SSlice, SSlice] SRow 1)
    (h0 : Slice x n a0) (h1 : Slice x (n + 1) a1) (h2 : Slice x (n + 2) a2) (h3 : Slice x (n + 3) a3)
    (h4 : Slice x (n + 4) a4) (h5 : Slice x (n + 5) a5) (h6 : Slice x (n + 6) a6) (h7 : Slice x (n + 7) a7) :
    Row x n (concatenate SRow 1 [⟨SSlice, a0⟩, ⟨SSlice, a1⟩, ⟨SSlice, a2⟩, ⟨SSlice, a3⟩, ⟨SSlice, a4⟩, ⟨SSlice, a5⟩,
      ⟨SSlice, a6⟩, ⟨SSlice, a7⟩] h) := by
  intro r p d
  match p with
  | ⟨0, _⟩ => exact (lanes_piece [⟨SSlice, a0⟩, ⟨SSlice, a1⟩, ⟨SSlice, a2⟩, ⟨SSlice, a3⟩, ⟨SSlice, a4⟩, ⟨SSlice, a5⟩, ⟨SSlice, a6⟩, ⟨SSlice, a7⟩] h 0 (by show 0 < 8; omega) a0 rfl rfl r _ rfl d).trans (h0 r d)
  | ⟨1, _⟩ => exact (lanes_piece [⟨SSlice, a0⟩, ⟨SSlice, a1⟩, ⟨SSlice, a2⟩, ⟨SSlice, a3⟩, ⟨SSlice, a4⟩, ⟨SSlice, a5⟩, ⟨SSlice, a6⟩, ⟨SSlice, a7⟩] h 1 (by show 1 < 8; omega) a1 rfl rfl r _ rfl d).trans (h1 r d)
  | ⟨2, _⟩ => exact (lanes_piece [⟨SSlice, a0⟩, ⟨SSlice, a1⟩, ⟨SSlice, a2⟩, ⟨SSlice, a3⟩, ⟨SSlice, a4⟩, ⟨SSlice, a5⟩, ⟨SSlice, a6⟩, ⟨SSlice, a7⟩] h 2 (by show 2 < 8; omega) a2 rfl rfl r _ rfl d).trans (h2 r d)
  | ⟨3, _⟩ => exact (lanes_piece [⟨SSlice, a0⟩, ⟨SSlice, a1⟩, ⟨SSlice, a2⟩, ⟨SSlice, a3⟩, ⟨SSlice, a4⟩, ⟨SSlice, a5⟩, ⟨SSlice, a6⟩, ⟨SSlice, a7⟩] h 3 (by show 3 < 8; omega) a3 rfl rfl r _ rfl d).trans (h3 r d)
  | ⟨4, _⟩ => exact (lanes_piece [⟨SSlice, a0⟩, ⟨SSlice, a1⟩, ⟨SSlice, a2⟩, ⟨SSlice, a3⟩, ⟨SSlice, a4⟩, ⟨SSlice, a5⟩, ⟨SSlice, a6⟩, ⟨SSlice, a7⟩] h 4 (by show 4 < 8; omega) a4 rfl rfl r _ rfl d).trans (h4 r d)
  | ⟨5, _⟩ => exact (lanes_piece [⟨SSlice, a0⟩, ⟨SSlice, a1⟩, ⟨SSlice, a2⟩, ⟨SSlice, a3⟩, ⟨SSlice, a4⟩, ⟨SSlice, a5⟩, ⟨SSlice, a6⟩, ⟨SSlice, a7⟩] h 5 (by show 5 < 8; omega) a5 rfl rfl r _ rfl d).trans (h5 r d)
  | ⟨6, _⟩ => exact (lanes_piece [⟨SSlice, a0⟩, ⟨SSlice, a1⟩, ⟨SSlice, a2⟩, ⟨SSlice, a3⟩, ⟨SSlice, a4⟩, ⟨SSlice, a5⟩, ⟨SSlice, a6⟩, ⟨SSlice, a7⟩] h 6 (by show 6 < 8; omega) a6 rfl rfl r _ rfl d).trans (h6 r d)
  | ⟨7, _⟩ => exact (lanes_piece [⟨SSlice, a0⟩, ⟨SSlice, a1⟩, ⟨SSlice, a2⟩, ⟨SSlice, a3⟩, ⟨SSlice, a4⟩, ⟨SSlice, a5⟩, ⟨SSlice, a6⟩, ⟨SSlice, a7⟩] h 7 (by show 7 < 8; omega) a7 rfl rfl r _ rfl d).trans (h7 r d)

/-- A row given a unit middle axis is the same row. -/
theorem row3_of_row (x : SIn.Idx → Val e) (n : Nat) (v : SRow.Idx → Val e) (h : SRow.ShapeCasts SRow3)
    (hv : Row x n v) : Row3 x n (shapeCast SRow3 v h) := by
  intro r p d
  refine (shapeCast_apply v h (ix3 r (0 : Fin 1) (lane p d)) (ix2 r (lane p d)) ?_).trans (hv r p d)
  rw [Shape.rowMajor_val_two, Shape.rowMajor_val_three]
  show r.val * 512 + (lane p d).val = (r.val * 1 + 0) * 512 + (lane p d).val
  omega

/-! ## Eight rows stacked -/

/-- Level `k` of a stack of one-level pieces reads piece `k`. -/
theorem stack_piece (xs : List ((s : Shape) × (s.Idx → Val e))) (h : Shape.Concatenates (xs.map (·.1)) STile 1)
    (k : Nat) (hk : k < xs.length) (b : SRow3.Idx → Val e) (hxk : xs[k] = ⟨SRow3, b⟩)
    (hpre : (((xs.take k).map (·.1)).map fun s => if h : s.rank = STile.rank then s.size ((1 : Fin STile.rank).cast h.symm) else 0).sum = k)
    (r : Fin 113) (m : Fin 8) (hm : m.val = k) (l : Fin 512) :
    concatenate STile 1 xs h (ix3 r m l) = b (ix3 r (0 : Fin 1) l) :=
  concatenate_apply_piece 1 xs h (ix3 r m l) k hk SRow3 b hxk rfl k hpre (ix3 r (0 : Fin 1) l)
    (fun c hc => match c with
      | ⟨0, _⟩ => rfl
      | ⟨1, _⟩ => absurd rfl hc
      | ⟨2, _⟩ => rfl)
    (by show k + 0 = m.val; omega)

/-- Rows `n, n + 1, …, n + 7` stacked, under a leading unit axis, are the block `n`. -/
theorem block_of_row3s (x : SIn.Idx → Val e) (n : Nat) (b0 b1 b2 b3 b4 b5 b6 b7 : SRow3.Idx → Val e)
    (hc : Shape.Concatenates [SRow3, SRow3, SRow3, SRow3, SRow3, SRow3, SRow3, SRow3] STile 1)
    (hs : STile.ShapeCasts SBlock)
    (h0 : Row3 x n b0) (h1 : Row3 x (n + 1) b1) (h2 : Row3 x (n + 2) b2) (h3 : Row3 x (n + 3) b3)
    (h4 : Row3 x (n + 4) b4) (h5 : Row3 x (n + 5) b5) (h6 : Row3 x (n + 6) b6) (h7 : Row3 x (n + 7) b7) :
    Block x n (shapeCast SBlock (concatenate STile 1 [⟨SRow3, b0⟩, ⟨SRow3, b1⟩, ⟨SRow3, b2⟩, ⟨SRow3, b3⟩, ⟨SRow3, b4⟩,
      ⟨SRow3, b5⟩, ⟨SRow3, b6⟩, ⟨SRow3, b7⟩] hc) hs) := by
  intro r m p d
  refine (shapeCast_addUnit_apply ![113, 8, 512] _ hs (ix4 (0 : Fin 1) r m (lane p d))).trans ?_
  have e : (fun a : Fin 3 => (ix4 (0 : Fin 1) r m (lane p d)) a.succ) = ix3 r m (lane p d) := by
    funext a
    match a with
    | ⟨0, _⟩ => rfl
    | ⟨1, _⟩ => rfl
    | ⟨2, _⟩ => rfl
  refine (congrArg _ e).trans ?_
  match m with
  | ⟨0, _⟩ => exact (stack_piece [⟨SRow3, b0⟩, ⟨SRow3, b1⟩, ⟨SRow3, b2⟩, ⟨SRow3, b3⟩, ⟨SRow3, b4⟩, ⟨SRow3, b5⟩, ⟨SRow3, b6⟩, ⟨SRow3, b7⟩] hc 0 (by show 0 < 8; omega) b0 rfl rfl r _ rfl _).trans (h0 r p d)
  | ⟨1, _⟩ => exact (stack_piece [⟨SRow3, b0⟩, ⟨SRow3, b1⟩, ⟨SRow3, b2⟩, ⟨SRow3, b3⟩, ⟨SRow3, b4⟩, ⟨SRow3, b5⟩, ⟨SRow3, b6⟩, ⟨SRow3, b7⟩] hc 1 (by show 1 < 8; omega) b1 rfl rfl r _ rfl _).trans (h1 r p d)
  | ⟨2, _⟩ => exact (stack_piece [⟨SRow3, b0⟩, ⟨SRow3, b1⟩, ⟨SRow3, b2⟩, ⟨SRow3, b3⟩, ⟨SRow3, b4⟩, ⟨SRow3, b5⟩, ⟨SRow3, b6⟩, ⟨SRow3, b7⟩] hc 2 (by show 2 < 8; omega) b2 rfl rfl r _ rfl _).trans (h2 r p d)
  | ⟨3, _⟩ => exact (stack_piece [⟨SRow3, b0⟩, ⟨SRow3, b1⟩, ⟨SRow3, b2⟩, ⟨SRow3, b3⟩, ⟨SRow3, b4⟩, ⟨SRow3, b5⟩, ⟨SRow3, b6⟩, ⟨SRow3, b7⟩] hc 3 (by show 3 < 8; omega) b3 rfl rfl r _ rfl _).trans (h3 r p d)
  | ⟨4, _⟩ => exact (stack_piece [⟨SRow3, b0⟩, ⟨SRow3, b1⟩, ⟨SRow3, b2⟩, ⟨SRow3, b3⟩, ⟨SRow3, b4⟩, ⟨SRow3, b5⟩, ⟨SRow3, b6⟩, ⟨SRow3, b7⟩] hc 4 (by show 4 < 8; omega) b4 rfl rfl r _ rfl _).trans (h4 r p d)
  | ⟨5, _⟩ => exact (stack_piece [⟨SRow3, b0⟩, ⟨SRow3, b1⟩, ⟨SRow3, b2⟩, ⟨SRow3, b3⟩, ⟨SRow3, b4⟩, ⟨SRow3, b5⟩, ⟨SRow3, b6⟩, ⟨SRow3, b7⟩] hc 5 (by show 5 < 8; omega) b5 rfl rfl r _ rfl _).trans (h5 r p d)
  | ⟨6, _⟩ => exact (stack_piece [⟨SRow3, b0⟩, ⟨SRow3, b1⟩, ⟨SRow3, b2⟩, ⟨SRow3, b3⟩, ⟨SRow3, b4⟩, ⟨SRow3, b5⟩, ⟨SRow3, b6⟩, ⟨SRow3, b7⟩] hc 6 (by show 6 < 8; omega) b6 rfl rfl r _ rfl _).trans (h6 r p d)
  | ⟨7, _⟩ => exact (stack_piece [⟨SRow3, b0⟩, ⟨SRow3, b1⟩, ⟨SRow3, b2⟩, ⟨SRow3, b3⟩, ⟨SRow3, b4⟩, ⟨SRow3, b5⟩, ⟨SRow3, b6⟩, ⟨SRow3, b7⟩] hc 7 (by show 7 < 8; omega) b7 rfl rfl r _ rfl _).trans (h7 r p d)

/-! ## The slices that start inside the pad -/

/-- `q` copies of row 0. -/
def Pad (x : SIn.Idx → Val e) (q : Nat) (v : (⟨2, ![q, 64]⟩ : Shape).Idx → Val e) : Prop :=
  ∀ (r : Fin q) (d : Fin 64), v (ix2 r d) = x (ix3 (0 : Fin 1) (0 : Fin 1024) d)

/-- The first `q` rows: positions `7, …, q + 6` of the padded sequence. -/
def Head (x : SIn.Idx → Val e) (q : Nat) (v : (⟨2, ![q, 64]⟩ : Shape).Idx → Val e) : Prop :=
  ∀ (r : Fin q) (d : Fin 64), v (ix2 r d) = x (ix3 (0 : Fin 1) (srcRow (r.val + 7)) d)

/-- A load of the first `q` rows, its unit axis dropped. -/
theorem head_of_load (x : SIn.Idx → Val e) (q : Nat) (off : Fin 3 → Nat)
    (inb : ∀ a, off a + (![1, q, 64] : Fin 3 → Nat) a ≤ SIn.size a)
    (h : (⟨3, ![1, q, 64]⟩ : Shape).ShapeCasts ⟨2, ![q, 64]⟩)
    (h0 : off 0 = 0) (h1 : off 1 = 0) (h2 : off 2 = 0) :
    Head x q (shapeCast ⟨2, ![q, 64]⟩ (View.ld x (Rect.unit (s := SIn) off ![1, q, 64] inb)) h) := by
  intro r d
  have hb : off 1 + q ≤ 1024 := inb 1
  have hr := r.isLt
  refine (shapeCast_dropUnit_apply ![q, 64] _ h (ix2 r d)).trans ?_
  show x ((Rect.unit (s := SIn) off ![1, q, 64] inb).idx (Fin.cons ⟨0, Nat.one_pos⟩ (ix2 r d))) = _
  refine congrArg x (funext fun a => Fin.ext ?_)
  match a with
  | ⟨0, _⟩ => show off 0 + 1 * 0 = 0; omega
  | ⟨1, _⟩ => show off 1 + 1 * r.val = min (r.val + 7 - 7) 1023; omega
  | ⟨2, _⟩ => show off 2 + 1 * d.val = d.val; omega

/-- The first row alone is one copy of row 0. -/
theorem pad_of_head (x : SIn.Idx → Val e) (v : (⟨2, ![1, 64]⟩ : Shape).Idx → Val e) (hv : Head x 1 v) : Pad x 1 v := by
  intro r d
  refine (hv r d).trans (congrArg x ?_)
  have hr := r.isLt
  refine funext fun a => Fin.ext ?_
  match a with
  | ⟨0, _⟩ => rfl
  | ⟨1, _⟩ => show min (r.val + 7 - 7) 1023 = 0; omega
  | ⟨2, _⟩ => rfl

/-- A cast to the same shape changes nothing. -/
theorem pad_self (x : SIn.Idx → Val e) (v : (⟨2, ![1, 64]⟩ : Shape).Idx → Val e)
    (h : (⟨2, ![1, 64]⟩ : Shape).ShapeCasts ⟨2, ![1, 64]⟩) (hv : Pad x 1 v) : Pad x 1 (shapeCast ⟨2, ![1, 64]⟩ v h) := by
  rw [shapeCast_self]; exact hv

/-- One copy of row 0 broadcast along the rows is `q` copies. -/
theorem pad_bcast (x : SIn.Idx → Val e) (q : Nat) (v : (⟨2, ![1, 64]⟩ : Shape).Idx → Val e)
    (h : (⟨2, ![1, 64]⟩ : Shape).Broadcasts ⟨2, ![q, 64]⟩) (hv : Pad x 1 v) : Pad x q (broadcastTo ⟨2, ![q, 64]⟩ v h) := by
  intro r d
  refine (broadcastTo_apply v h (ix2 r d) (ix2 (0 : Fin 1) d) (fun a => ?_)).trans (hv 0 d)
  match a with
  | ⟨0, _⟩ => rfl
  | ⟨1, _⟩ => rfl

/-- `q` copies of row 0 joined above the first `113 - q` rows: the slice that starts `q` positions before the pad's end. -/
theorem slice_of_join (x : SIn.Idx → Val e) (q q' n : Nat) (a : (⟨2, ![q, 64]⟩ : Shape).Idx → Val e)
    (b : (⟨2, ![q', 64]⟩ : Shape).Idx → Val e)
    (h : Shape.Concatenates [(⟨2, ![q, 64]⟩ : Shape), ⟨2, ![q', 64]⟩] SSlice 0)
    (hq : q + q' = 113) (hn : n + q = 7) (ha : Pad x q a) (hb : Head x q' b) :
    Slice x n (concatenate SSlice 0 [⟨⟨2, ![q, 64]⟩, a⟩, ⟨⟨2, ![q', 64]⟩, b⟩] h) := by
  intro r d
  have hr113 := r.isLt
  by_cases hr : r.val < q
  · refine (concatenate_pair_apply_left 0 a b h (ix2 r d) rfl (ix2 (⟨r.val, hr⟩ : Fin q) d) (fun c => ?_)).trans ?_
    · match c with
      | ⟨0, _⟩ => rfl
      | ⟨1, _⟩ => rfl
    · refine (ha ⟨r.val, hr⟩ d).trans (congrArg x (funext fun c => Fin.ext ?_))
      match c with
      | ⟨0, _⟩ => rfl
      | ⟨1, _⟩ => show 0 = min (n + r.val - 7) 1023; omega
      | ⟨2, _⟩ => rfl
  · have hr' : r.val - q < q' := by omega
    refine (concatenate_pair_apply_right 0 a b h (ix2 r d) rfl rfl (ix2 (⟨r.val - q, hr'⟩ : Fin q') d) (fun c hc => ?_) ?_).trans ?_
    · match c with
      | ⟨0, _⟩ => exact absurd rfl hc
      | ⟨1, _⟩ => rfl
    · show r.val - q + q = r.val; omega
    · refine (hb ⟨r.val - q, hr'⟩ d).trans (congrArg x (funext fun c => Fin.ext ?_))
      match c with
      | ⟨0, _⟩ => rfl
      | ⟨1, _⟩ => show min (r.val - q + 7 - 7) 1023 = min (n + r.val - 7) 1023; omega
      | ⟨2, _⟩ => rfl

end Cert.Windows
-- ==== Proof.Chunk0.lean ====
/-
  The first of the nine stores of one grid point's body, which writes rows 0 to 112 of the block: the windows that start at positions 0, …, 112.  Seven of its fifteen slices start inside the
  pad — copies of row 0 above the first rows — and the other eight are plain runs of rows.
  Its value is a stack of eight rows, each eight slices side by side: the stored entry `(r, m, 64 p + d)` is position
  `0 + m + p + r` of the padded sequence at `d`.  The proof opens the stored value's definition and follows its structure.
-/
import proofs.«148824_j55_2_alg».proof.Proof.Gen.KernelIdeal.Frame
import proofs.«148824_j55_2_alg».proof.Proof.WindowPieces

noncomputable section

namespace Cert.KernelIdeal.Block

open Idealize.ShloMosaic Idealize.ShloMosaic.ValueIdx Cert.KernelIdeal Cert.KernelIdeal.Gen Cert.Windows

variable {F : FTy → Type} [FloatOps F]

set_option maxHeartbeats 1000000 in
theorem chunk0 (x0 : Vec F S1x1024x64 .f32) :
    Block (Val := Elt F) (e := .f32) x0 0
      (k0_pay16 (k0_pay2 (View.ld x0 r0_0) (View.ld x0 r0_1)) (k0_pay3 (View.ld x0 r0_0) (View.ld x0 r0_2)) (k0_pay4 (View.ld x0 r0_0) (View.ld x0 r0_3)) (k0_pay5 (View.ld x0 r0_0) (View.ld x0 r0_4)) (k0_pay7 (k0_pay6 (View.ld x0 r0_0)) (View.ld x0 r0_5)) (k0_pay8 (View.ld x0 r0_0) (View.ld x0 r0_6)) (k0_pay9 (View.ld x0 r0_0) (View.ld x0 r0_7)) (k0_pay10 (View.ld x0 r0_8)) (k0_pay11 (View.ld x0 r0_9)) (k0_pay12 (View.ld x0 r0_10)) (k0_pay13 (View.ld x0 r0_11)) (k0_pay14 (View.ld x0 r0_12)) (k0_pay15 (View.ld x0 r0_13)) (View.ld x0 r0_14) (View.ld x0 r0_15)) := by
  unfold k0_pay16 k0_pay2 k0_pay3 k0_pay4 k0_pay5 k0_pay7 k0_pay6 k0_pay8 k0_pay9 k0_pay10 k0_pay11 k0_pay12 k0_pay13 k0_pay14 k0_pay15
  dsimp only
  refine block_of_row3s (Val := Elt F) (e := .f32) x0 _ _ _ _ _ _ _ _ _ _ _ ?_ ?_ ?_ ?_ ?_ ?_ ?_ ?_
  all_goals refine row3_of_row (Val := Elt F) (e := .f32) x0 _ _ _ ?_
  all_goals refine row_of_slices (Val := Elt F) (e := .f32) x0 _ _ _ _ _ _ _ _ _ _ ?_ ?_ ?_ ?_ ?_ ?_ ?_ ?_
  all_goals first
    | exact slice_of_load (Val := Elt F) (e := .f32) x0 _ _ _ _ rfl rfl rfl
    | (refine slice_of_join (Val := Elt F) (e := .f32) x0 _ _ _ _ _ _ ?_ ?_ ?_ ?_
       · rfl
       · rfl
       · first
         | (refine pad_bcast (Val := Elt F) (e := .f32) x0 _ _ _ ?_
            refine pad_self (Val := Elt F) (e := .f32) x0 _ _ ?_
            refine pad_of_head (Val := Elt F) (e := .f32) x0 _ ?_
            exact head_of_load (Val := Elt F) (e := .f32) x0 _ _ _ _ rfl rfl rfl)
         | (refine pad_of_head (Val := Elt F) (e := .f32) x0 _ ?_
            exact head_of_load (Val := Elt F) (e := .f32) x0 _ _ _ _ rfl rfl rfl)
       · exact head_of_load (Val := Elt F) (e := .f32) x0 _ _ _ _ rfl rfl rfl)

end Cert.KernelIdeal.Block

end
-- ==== Proof.Chunk1.lean ====
/-
  The second of the nine stores of one grid point's body, which writes rows 113 to 225 of the block: the windows that start at positions 113, …, 225.  All fifteen slices lie past the pad,
  so each is a plain run of 113 rows, the one for position `s` starting at row `s - 7`.
  Its value is a stack of eight rows, each eight slices side by side: the stored entry `(r, m, 64 p + d)` is position
  `113 + m + p + r` of the padded sequence at `d`.  The proof opens the stored value's definition and follows its structure.
-/
import proofs.«148824_j55_2_alg».proof.Proof.Gen.KernelIdeal.Frame
import proofs.«148824_j55_2_alg».proof.Proof.WindowPieces

noncomputable section

namespace Cert.KernelIdeal.Block

open Idealize.ShloMosaic Idealize.ShloMosaic.ValueIdx Cert.KernelIdeal Cert.KernelIdeal.Gen Cert.Windows

variable {F : FTy → Type} [FloatOps F]

set_option maxHeartbeats 1000000 in
theorem chunk1 (x0 : Vec F S1x1024x64 .f32) :
    Block (Val := Elt F) (e := .f32) x0 113
      (k0_pay39 (k0_pay31 (k0_pay19 (View.ld x0 r0_19)) (k0_pay20 (View.ld x0 r0_20)) (k0_pay21 (View.ld x0 r0_21)) (View.ld x0 r0_22) (View.ld x0 r0_23) (View.ld x0 r0_24) (View.ld x0 r0_25) (View.ld x0 r0_26)) (k0_pay32 (k0_pay20 (View.ld x0 r0_20)) (k0_pay21 (View.ld x0 r0_21)) (View.ld x0 r0_22) (View.ld x0 r0_23) (View.ld x0 r0_24) (View.ld x0 r0_25) (View.ld x0 r0_26) (View.ld x0 r0_27)) (k0_pay33 (k0_pay21 (View.ld x0 r0_21)) (View.ld x0 r0_22) (View.ld x0 r0_23) (View.ld x0 r0_24) (View.ld x0 r0_25) (View.ld x0 r0_26) (View.ld x0 r0_27) (View.ld x0 r0_28)) (k0_pay34 (View.ld x0 r0_22) (View.ld x0 r0_23) (View.ld x0 r0_24) (View.ld x0 r0_25) (View.ld x0 r0_26) (View.ld x0 r0_27) (View.ld x0 r0_28) (View.ld x0 r0_29)) (k0_pay35 (View.ld x0 r0_23) (View.ld x0 r0_24) (View.ld x0 r0_25) (View.ld x0 r0_26) (View.ld x0 r0_27) (View.ld x0 r0_28) (View.ld x0 r0_29) (View.ld x0 r0_30)) (k0_pay36 (View.ld x0 r0_24) (View.ld x0 r0_25) (View.ld x0 r0_26) (View.ld x0 r0_27) (View.ld x0 r0_28) (View.ld x0 r0_29) (View.ld x0 r0_30) (View.ld x0 r0_31)) (k0_pay37 (k0_pay17 (View.ld x0 r0_17)) (k0_pay18 (View.ld x0 r0_18)) (k0_pay19 (View.ld x0 r0_19)) (k0_pay20 (View.ld x0 r0_20)) (k0_pay21 (View.ld x0 r0_21)) (View.ld x0 r0_22) (View.ld x0 r0_23) (View.ld x0 r0_24)) (k0_pay38 (k0_pay18 (View.ld x0 r0_18)) (k0_pay19 (View.ld x0 r0_19)) (k0_pay20 (View.ld x0 r0_20)) (k0_pay21 (View.ld x0 r0_21)) (View.ld x0 r0_22) (View.ld x0 r0_23) (View.ld x0 r0_24) (View.ld x0 r0_25))) := by
  unfold k0_pay39 k0_pay31 k0_pay19 k0_pay20 k0_pay21 k0_pay32 k0_pay33 k0_pay34 k0_pay35 k0_pay36 k0_pay37 k0_pay17 k0_pay18 k0_pay38
  unfold k0_pay22 k0_pay23 k0_pay24 k0_pay25 k0_pay26 k0_pay27 k0_pay28 k0_pay29 k0_pay30
  dsimp only
  refine block_of_row3s (Val := Elt F) (e := .f32) x0 _ _ _ _ _ _ _ _ _ _ _ ?_ ?_ ?_ ?_ ?_ ?_ ?_ ?_
  all_goals refine row3_of_row (Val := Elt F) (e := .f32) x0 _ _ _ ?_
  all_goals refine row_of_slices (Val := Elt F) (e := .f32) x0 _ _ _ _ _ _ _ _ _ _ ?_ ?_ ?_ ?_ ?_ ?_ ?_ ?_
  all_goals exact slice_of_load (Val := Elt F) (e := .f32) x0 _ _ _ _ rfl rfl rfl

end Cert.KernelIdeal.Block

end
-- ==== Proof.Chunk2.lean ====
/-
  The third of the nine stores of one grid point's body, which writes rows 226 to 338 of the block: the windows that start at positions 226, …, 338.  All fifteen slices lie past the pad,
  so each is a plain run of 113 rows, the one for position `s` starting at row `s - 7`.
  Its value is a stack of eight rows, each eight slices side by side: the stored entry `(r, m, 64 p + d)` is position
  `226 + m + p + r` of the padded sequence at `d`.  The proof opens the stored value's definition and follows its structure.
-/
import proofs.«148824_j55_2_alg».proof.Proof.Gen.KernelIdeal.Frame
import proofs.«148824_j55_2_alg».proof.Proof.WindowPieces

noncomputable section

namespace Cert.KernelIdeal.Block

open Idealize.ShloMosaic Idealize.ShloMosaic.ValueIdx Cert.KernelIdeal Cert.KernelIdeal.Gen Cert.Windows

variable {F : FTy → Type} [FloatOps F]

set_option maxHeartbeats 1000000 in
theorem chunk2 (x0 : Vec F S1x1024x64 .f32) :
    Block (Val := Elt F) (e := .f32) x0 226
      (k0_pay49 (k0_pay40 (View.ld x0 r0_33)) (k0_pay41 (View.ld x0 r0_34)) (k0_pay42 (View.ld x0 r0_35)) (k0_pay43 (View.ld x0 r0_36)) (k0_pay44 (View.ld x0 r0_37)) (k0_pay45 (View.ld x0 r0_38)) (k0_pay46 (View.ld x0 r0_39)) (k0_pay47 (View.ld x0 r0_40)) (k0_pay48 (View.ld x0 r0_41)) (View.ld x0 r0_42) (View.ld x0 r0_43) (View.ld x0 r0_44) (View.ld x0 r0_45) (View.ld x0 r0_46) (View.ld x0 r0_47)) := by
  unfold k0_pay49 k0_pay40 k0_pay41 k0_pay42 k0_pay43 k0_pay44 k0_pay45 k0_pay46 k0_pay47 k0_pay48
  dsimp only
  refine block_of_row3s (Val := Elt F) (e := .f32) x0 _ _ _ _ _ _ _ _ _ _ _ ?_ ?_ ?_ ?_ ?_ ?_ ?_ ?_
  all_goals refine row3_of_row (Val := Elt F) (e := .f32) x0 _ _ _ ?_
  all_goals refine row_of_slices (Val := Elt F) (e := .f32) x0 _ _ _ _ _ _ _ _ _ _ ?_ ?_ ?_ ?_ ?_ ?_ ?_ ?_
  all_goals exact slice_of_load (Val := Elt F) (e := .f32) x0 _ _ _ _ rfl rfl rfl

end Cert.KernelIdeal.Block

end
-- ==== Proof.Chunk3.lean ====
/-
  The fourth of the nine stores of one grid point's body, which writes rows 339 to 451 of the block: the windows that start at positions 339, …, 451.  All fifteen slices lie past the pad,
  so each is a plain run of 113 rows, the one for position `s` starting at row `s - 7`.
  Its value is a stack of eight rows, each eight slices side by side: the stored entry `(r, m, 64 p + d)` is position
  `339 + m + p + r` of the padded sequence at `d`.  The proof opens the stored value's definition and follows its structure.
-/
import proofs.«148824_j55_2_alg».proof.Proof.Gen.KernelIdeal.Frame
import proofs.«148824_j55_2_alg».proof.Proof.WindowPieces

noncomputable section

namespace Cert.KernelIdeal.Block

open Idealize.ShloMosaic Idealize.ShloMosaic.ValueIdx Cert.KernelIdeal Cert.KernelIdeal.Gen Cert.Windows

variable {F : FTy → Type} [FloatOps F]

set_option maxHeartbeats 1000000 in
theorem chunk3 (x0 : Vec F S1x1024x64 .f32) :
    Block (Val := Elt F) (e := .f32) x0 339
      (k0_pay63 (k0_pay50 (View.ld x0 r0_49)) (k0_pay51 (View.ld x0 r0_50)) (k0_pay52 (View.ld x0 r0_51)) (k0_pay53 (View.ld x0 r0_52)) (k0_pay54 (View.ld x0 r0_53)) (k0_pay55 (View.ld x0 r0_54)) (k0_pay56 (View.ld x0 r0_55)) (k0_pay57 (View.ld x0 r0_56)) (k0_pay58 (View.ld x0 r0_57)) (k0_pay59 (View.ld x0 r0_58)) (k0_pay60 (View.ld x0 r0_59)) (k0_pay61 (View.ld x0 r0_60)) (k0_pay62 (View.ld x0 r0_61)) (View.ld x0 r0_62) (View.ld x0 r0_63)) := by
  unfold k0_pay63 k0_pay50 k0_pay51 k0_pay52 k0_pay53 k0_pay54 k0_pay55 k0_pay56 k0_pay57 k0_pay58 k0_pay59 k0_pay60 k0_pay61 k0_pay62
  dsimp only
  refine block_of_row3s (Val := Elt F) (e := .f32) x0 _ _ _ _ _ _ _ _ _ _ _ ?_ ?_ ?_ ?_ ?_ ?_ ?_ ?_
  all_goals refine row3_of_row (Val := Elt F) (e := .f32) x0 _ _ _ ?_
  all_goals refine row_of_slices (Val := Elt F) (e := .f32) x0 _ _ _ _ _ _ _ _ _ _ ?_ ?_ ?_ ?_ ?_ ?_ ?_ ?_
  all_goals exact slice_of_load (Val := Elt F) (e := .f32) x0 _ _ _ _ rfl rfl rfl

end Cert.KernelIdeal.Block

end
-- ==== Proof.Chunk4.lean ====
/-
  The fifth of the nine stores of one grid point's body, which writes rows 452 to 564 of the block: the windows that start at positions 452, …, 564.  All fifteen slices lie past the pad,
  so each is a plain run of 113 rows, the one for position `s` starting at row `s - 7`.
  Its value is a stack of eight rows, each eight slices side by side: the stored entry `(r, m, 64 p + d)` is position
  `452 + m + p + r` of the padded sequence at `d`.  The proof opens the stored value's definition and follows its structure.
-/
import proofs.«148824_j55_2_alg».proof.Proof.Gen.KernelIdeal.Frame
import proofs.«148824_j55_2_alg».proof.Proof.WindowPieces

noncomputable section

namespace Cert.KernelIdeal.Block

open Idealize.ShloMosaic Idealize.ShloMosaic.ValueIdx Cert.KernelIdeal Cert.KernelIdeal.Gen Cert.Windows

variable {F : FTy → Type} [FloatOps F]

set_option maxHeartbeats 1000000 in
theorem chunk4 (x0 : Vec F S1x1024x64 .f32) :
    Block (Val := Elt F) (e := .f32) x0 452
      (k0_pay86 (k0_pay78 (k0_pay66 (View.ld x0 r0_67)) (k0_pay67 (View.ld x0 r0_68)) (k0_pay68 (View.ld x0 r0_69)) (View.ld x0 r0_70) (View.ld x0 r0_71) (View.ld x0 r0_72) (View.ld x0 r0_73) (View.ld x0 r0_74)) (k0_pay79 (k0_pay67 (View.ld x0 r0_68)) (k0_pay68 (View.ld x0 r0_69)) (View.ld x0 r0_70) (View.ld x0 r0_71) (View.ld x0 r0_72) (View.ld x0 r0_73) (View.ld x0 r0_74) (View.ld x0 r0_75)) (k0_pay80 (k0_pay68 (View.ld x0 r0_69)) (View.ld x0 r0_70) (View.ld x0 r0_71) (View.ld x0 r0_72) (View.ld x0 r0_73) (View.ld x0 r0_74) (View.ld x0 r0_75) (View.ld x0 r0_76)) (k0_pay81 (View.ld x0 r0_70) (View.ld x0 r0_71) (View.ld x0 r0_72) (View.ld x0 r0_73) (View.ld x0 r0_74) (View.ld x0 r0_75) (View.ld x0 r0_76) (View.ld x0 r0_77)) (k0_pay82 (View.ld x0 r0_71) (View.ld x0 r0_72) (View.ld x0 r0_73) (View.ld x0 r0_74) (View.ld x0 r0_75) (View.ld x0 r0_76) (View.ld x0 r0_77) (View.ld x0 r0_78)) (k0_pay83 (View.ld x0 r0_72) (View.ld x0 r0_73) (View.ld x0 r0_74) (View.ld x0 r0_75) (View.ld x0 r0_76) (View.ld x0 r0_77) (View.ld x0 r0_78) (View.ld x0 r0_79)) (k0_pay84 (k0_pay64 (View.ld x0 r0_65)) (k0_pay65 (View.ld x0 r0_66)) (k0_pay66 (View.ld x0 r0_67)) (k0_pay67 (View.ld x0 r0_68)) (k0_pay68 (View.ld x0 r0_69)) (View.ld x0 r0_70) (View.ld x0 r0_71) (View.ld x0 r0_72)) (k0_pay85 (k0_pay65 (View.ld x0 r0_66)) (k0_pay66 (View.ld x0 r0_67)) (k0_pay67 (View.ld x0 r0_68)) (k0_pay68 (View.ld x0 r0_69)) (View.ld x0 r0_70) (View.ld x0 r0_71) (View.ld x0 r0_72) (View.ld x0 r0_73))) := by
  unfold k0_pay86 k0_pay78 k0_pay66 k0_pay67 k0_pay68 k0_pay79 k0_pay80 k0_pay81 k0_pay82 k0_pay83 k0_pay84 k0_pay64 k0_pay65 k0_pay85
  unfold k0_pay69 k0_pay70 k0_pay71 k0_pay72 k0_pay73 k0_pay74 k0_pay75 k0_pay76 k0_pay77
  dsimp only
  refine block_of_row3s (Val := Elt F) (e := .f32) x0 _ _ _ _ _ _ _ _ _ _ _ ?_ ?_ ?_ ?_ ?_ ?_ ?_ ?_
  all_goals refine row3_of_row (Val := Elt F) (e := .f32) x0 _ _ _ ?_
  all_goals refine row_of_slices (Val := Elt F) (e := .f32) x0 _ _ _ _ _ _ _ _ _ _ ?_ ?_ ?_ ?_ ?_ ?_ ?_ ?_
  all_goals exact slice_of_load (Val := Elt F) (e := .f32) x0 _ _ _ _ rfl rfl rfl

end Cert.KernelIdeal.Block

end
-- ==== Proof.Chunk5.lean ====
/-
  The sixth of the nine stores of one grid point's body, which writes rows 565 to 677 of the block: the windows that start at positions 565, …, 677.  All fifteen slices lie past the pad,
  so each is a plain run of 113 rows, the one for position `s` starting at row `s - 7`.
  Its value is a stack of eight rows, each eight slices side by side: the stored entry `(r, m, 64 p + d)` is position
  `565 + m + p + r` of the padded sequence at `d`.  The proof opens the stored value's definition and follows its structure.
-/
import proofs.«148824_j55_2_alg».proof.Proof.Gen.KernelIdeal.Frame
import proofs.«148824_j55_2_alg».proof.Proof.WindowPieces

noncomputable section

namespace Cert.KernelIdeal.Block

open Idealize.ShloMosaic Idealize.ShloMosaic.ValueIdx Cert.KernelIdeal Cert.KernelIdeal.Gen Cert.Windows

variable {F : FTy → Type} [FloatOps F]

set_option maxHeartbeats 1000000 in
theorem chunk5 (x0 : Vec F S1x1024x64 .f32) :
    Block (Val := Elt F) (e := .f32) x0 565
      (k0_pay96 (k0_pay87 (View.ld x0 r0_81)) (k0_pay88 (View.ld x0 r0_82)) (k0_pay89 (View.ld x0 r0_83)) (k0_pay90 (View.ld x0 r0_84)) (k0_pay91 (View.ld x0 r0_85)) (k0_pay92 (View.ld x0 r0_86)) (k0_pay93 (View.ld x0 r0_87)) (k0_pay94 (View.ld x0 r0_88)) (k0_pay95 (View.ld x0 r0_89)) (View.ld x0 r0_90) (View.ld x0 r0_91) (View.ld x0 r0_92) (View.ld x0 r0_93) (View.ld x0 r0_94) (View.ld x0 r0_95)) := by
  unfold k0_pay96 k0_pay87 k0_pay88 k0_pay89 k0_pay90 k0_pay91 k0_pay92 k0_pay93 k0_pay94 k0_pay95
  dsimp only
  refine block_of_row3s (Val := Elt F) (e := .f32) x0 _ _ _ _ _ _ _ _ _ _ _ ?_ ?_ ?_ ?_ ?_ ?_ ?_ ?_
  all_goals refine row3_of_row (Val := Elt F) (e := .f32) x0 _ _ _ ?_
  all_goals refine row_of_slices (Val := Elt F) (e := .f32) x0 _ _ _ _ _ _ _ _ _ _ ?_ ?_ ?_ ?_ ?_ ?_ ?_ ?_
  all_goals exact slice_of_load (Val := Elt F) (e := .f32) x0 _ _ _ _ rfl rfl rfl

end Cert.KernelIdeal.Block

end
-- ==== Proof.Chunk6.lean ====
/-
  The seventh of the nine stores of one grid point's body, which writes rows 678 to 790 of the block: the windows that start at positions 678, …, 790.  All fifteen slices lie past the pad,
  so each is a plain run of 113 rows, the one for position `s` starting at row `s - 7`.
  Its value is a stack of eight rows, each eight slices side by side: the stored entry `(r, m, 64 p + d)` is position
  `678 + m + p + r` of the padded sequence at `d`.  The proof opens the stored value's definition and follows its structure.
-/
import proofs.«148824_j55_2_alg».proof.Proof.Gen.KernelIdeal.Frame
import proofs.«148824_j55_2_alg».proof.Proof.WindowPieces

noncomputable section

namespace Cert.KernelIdeal.Block

open Idealize.ShloMosaic Idealize.ShloMosaic.ValueIdx Cert.KernelIdeal Cert.KernelIdeal.Gen Cert.Windows

variable {F : FTy → Type} [FloatOps F]

set_option maxHeartbeats 1000000 in
theorem chunk6 (x0 : Vec F S1x1024x64 .f32) :
    Block (Val := Elt F) (e := .f32) x0 678
      (k0_pay110 (k0_pay97 (View.ld x0 r0_97)) (k0_pay98 (View.ld x0 r0_98)) (k0_pay99 (View.ld x0 r0_99)) (k0_pay100 (View.ld x0 r0_100)) (k0_pay101 (View.ld x0 r0_101)) (k0_pay102 (View.ld x0 r0_102)) (k0_pay103 (View.ld x0 r0_103)) (k0_pay104 (View.ld x0 r0_104)) (k0_pay105 (View.ld x0 r0_105)) (k0_pay106 (View.ld x0 r0_106)) (k0_pay107 (View.ld x0 r0_107)) (k0_pay108 (View.ld x0 r0_108)) (k0_pay109 (View.ld x0 r0_109)) (View.ld x0 r0_110) (View.ld x0 r0_111)) := by
  unfold k0_pay110 k0_pay97 k0_pay98 k0_pay99 k0_pay100 k0_pay101 k0_pay102 k0_pay103 k0_pay104 k0_pay105 k0_pay106 k0_pay107 k0_pay108 k0_pay109
  dsimp only
  refine block_of_row3s (Val := Elt F) (e := .f32) x0 _ _ _ _ _ _ _ _ _ _ _ ?_ ?_ ?_ ?_ ?_ ?_ ?_ ?_
  all_goals refine row3_of_row (Val := Elt F) (e := .f32) x0 _ _ _ ?_
  all_goals refine row_of_slices (Val := Elt F) (e := .f32) x0 _ _ _ _ _ _ _ _ _ _ ?_ ?_ ?_ ?_ ?_ ?_ ?_ ?_
  all_goals exact slice_of_load (Val := Elt F) (e := .f32) x0 _ _ _ _ rfl rfl rfl

end Cert.KernelIdeal.Block

end
-- ==== Proof.Chunk7.lean ====
/-
  The eighth of the nine stores of one grid point's body, which writes rows 791 to 903 of the block: the windows that start at positions 791, …, 903.  All fifteen slices lie past the pad,
  so each is a plain run of 113 rows, the one for position `s` starting at row `s - 7`.
  Its value is a stack of eight rows, each eight slices side by side: the stored entry `(r, m, 64 p + d)` is position
  `791 + m + p + r` of the padded sequence at `d`.  The proof opens the stored value's definition and follows its structure.
-/
import proofs.«148824_j55_2_alg».proof.Proof.Gen.KernelIdeal.Frame
import proofs.«148824_j55_2_alg».proof.Proof.WindowPieces

noncomputable section

namespace Cert.KernelIdeal.Block

open Idealize.ShloMosaic Idealize.ShloMosaic.ValueIdx Cert.KernelIdeal Cert.KernelIdeal.Gen Cert.Windows

variable {F : FTy → Type} [FloatOps F]

set_option maxHeartbeats 1000000 in
theorem chunk7 (x0 : Vec F S1x1024x64 .f32) :
    Block (Val := Elt F) (e := .f32) x0 791
      (k0_pay133 (k0_pay125 (k0_pay113 (View.ld x0 r0_115)) (k0_pay114 (View.ld x0 r0_116)) (k0_pay115 (View.ld x0 r0_117)) (View.ld x0 r0_118) (View.ld x0 r0_119) (View.ld x0 r0_120) (View.ld x0 r0_121) (View.ld x0 r0_122)) (k0_pay126 (k0_pay114 (View.ld x0 r0_116)) (k0_pay115 (View.ld x0 r0_117)) (View.ld x0 r0_118) (View.ld x0 r0_119) (View.ld x0 r0_120) (View.ld x0 r0_121) (View.ld x0 r0_122) (View.ld x0 r0_123)) (k0_pay127 (k0_pay115 (View.ld x0 r0_117)) (View.ld x0 r0_118) (View.ld x0 r0_119) (View.ld x0 r0_120) (View.ld x0 r0_121) (View.ld x0 r0_122) (View.ld x0 r0_123) (View.ld x0 r0_124)) (k0_pay128 (View.ld x0 r0_118) (View.ld x0 r0_119) (View.ld x0 r0_120) (View.ld x0 r0_121) (View.ld x0 r0_122) (View.ld x0 r0_123) (View.ld x0 r0_124) (View.ld x0 r0_125)) (k0_pay129 (View.ld x0 r0_119) (View.ld x0 r0_120) (View.ld x0 r0_121) (View.ld x0 r0_122) (View.ld x0 r0_123) (View.ld x0 r0_124) (View.ld x0 r0_125) (View.ld x0 r0_126)) (k0_pay130 (View.ld x0 r0_120) (View.ld x0 r0_121) (View.ld x0 r0_122) (View.ld x0 r0_123) (View.ld x0 r0_124) (View.ld x0 r0_125) (View.ld x0 r0_126) (View.ld x0 r0_127)) (k0_pay131 (k0_pay111 (View.ld x0 r0_113)) (k0_pay112 (View.ld x0 r0_114)) (k0_pay113 (View.ld x0 r0_115)) (k0_pay114 (View.ld x0 r0_116)) (k0_pay115 (View.ld x0 r0_117)) (View.ld x0 r0_118) (View.ld x0 r0_119) (View.ld x0 r0_120)) (k0_pay132 (k0_pay112 (View.ld x0 r0_114)) (k0_pay113 (View.ld x0 r0_115)) (k0_pay114 (View.ld x0 r0_116)) (k0_pay115 (View.ld x0 r0_117)) (View.ld x0 r0_118) (View.ld x0 r0_119) (View.ld x0 r0_120) (View.ld x0 r0_121))) := by
  unfold k0_pay133 k0_pay125 k0_pay113 k0_pay114 k0_pay115 k0_pay126 k0_pay127 k0_pay128 k0_pay129 k0_pay130 k0_pay131 k0_pay111 k0_pay112 k0_pay132
  unfold k0_pay116 k0_pay117 k0_pay118 k0_pay119 k0_pay120 k0_pay121 k0_pay122 k0_pay123 k0_pay124
  dsimp only
  refine block_of_row3s (Val := Elt F) (e := .f32) x0 _ _ _ _ _ _ _ _ _ _ _ ?_ ?_ ?_ ?_ ?_ ?_ ?_ ?_
  all_goals refine row3_of_row (Val := Elt F) (e := .f32) x0 _ _ _ ?_
  all_goals refine row_of_slices (Val := Elt F) (e := .f32) x0 _ _ _ _ _ _ _ _ _ _ ?_ ?_ ?_ ?_ ?_ ?_ ?_ ?_
  all_goals exact slice_of_load (Val := Elt F) (e := .f32) x0 _ _ _ _ rfl rfl rfl

end Cert.KernelIdeal.Block

end
-- ==== Proof.Chunk8.lean ====
/-
  The ninth of the nine stores of one grid point's body, which writes rows 904 to 1016 of the block: the windows that start at positions 904, …, 1016.  All fifteen slices lie past the pad,
  so each is a plain run of 113 rows, the one for position `s` starting at row `s - 7`.
  Its value is a stack of eight rows, each eight slices side by side: the stored entry `(r, m, 64 p + d)` is position
  `904 + m + p + r` of the padded sequence at `d`.  The proof opens the stored value's definition and follows its structure.
-/
import proofs.«148824_j55_2_alg».proof.Proof.Gen.KernelIdeal.Frame
import proofs.«148824_j55_2_alg».proof.Proof.WindowPieces

noncomputable section

namespace Cert.KernelIdeal.Block

open Idealize.ShloMosaic Idealize.ShloMosaic.ValueIdx Cert.KernelIdeal Cert.KernelIdeal.Gen Cert.Windows

variable {F : FTy → Type} [FloatOps F]

set_option maxHeartbeats 1000000 in
theorem chunk8 (x0 : Vec F S1x1024x64 .f32) :
    Block (Val := Elt F) (e := .f32) x0 904
      (k0_pay1 (k0_pay148 (k0_pay141 (View.ld x0 r0_136)) (k0_pay142 (View.ld x0 r0_137)) (View.ld x0 r0_138) (View.ld x0 r0_139) (View.ld x0 r0_140) (View.ld x0 r0_141) (View.ld x0 r0_142) (View.ld x0 r0_143)) (k0_pay149 (k0_pay134 (View.ld x0 r0_129)) (k0_pay135 (View.ld x0 r0_130)) (k0_pay136 (View.ld x0 r0_131)) (k0_pay137 (View.ld x0 r0_132)) (k0_pay138 (View.ld x0 r0_133)) (k0_pay139 (View.ld x0 r0_134)) (k0_pay140 (View.ld x0 r0_135)) (k0_pay141 (View.ld x0 r0_136))) (k0_pay150 (k0_pay135 (View.ld x0 r0_130)) (k0_pay136 (View.ld x0 r0_131)) (k0_pay137 (View.ld x0 r0_132)) (k0_pay138 (View.ld x0 r0_133)) (k0_pay139 (View.ld x0 r0_134)) (k0_pay140 (View.ld x0 r0_135)) (k0_pay141 (View.ld x0 r0_136)) (k0_pay142 (View.ld x0 r0_137))) (k0_pay151 (k0_pay136 (View.ld x0 r0_131)) (k0_pay137 (View.ld x0 r0_132)) (k0_pay138 (View.ld x0 r0_133)) (k0_pay139 (View.ld x0 r0_134)) (k0_pay140 (View.ld x0 r0_135)) (k0_pay141 (View.ld x0 r0_136)) (k0_pay142 (View.ld x0 r0_137)) (View.ld x0 r0_138)) (k0_pay152 (k0_pay137 (View.ld x0 r0_132)) (k0_pay138 (View.ld x0 r0_133)) (k0_pay139 (View.ld x0 r0_134)) (k0_pay140 (View.ld x0 r0_135)) (k0_pay141 (View.ld x0 r0_136)) (k0_pay142 (View.ld x0 r0_137)) (View.ld x0 r0_138) (View.ld x0 r0_139)) (k0_pay153 (k0_pay138 (View.ld x0 r0_133)) (k0_pay139 (View.ld x0 r0_134)) (k0_pay140 (View.ld x0 r0_135)) (k0_pay141 (View.ld x0 r0_136)) (k0_pay142 (View.ld x0 r0_137)) (View.ld x0 r0_138) (View.ld x0 r0_139) (View.ld x0 r0_140)) (k0_pay154 (k0_pay139 (View.ld x0 r0_134)) (k0_pay140 (View.ld x0 r0_135)) (k0_pay141 (View.ld x0 r0_136)) (k0_pay142 (View.ld x0 r0_137)) (View.ld x0 r0_138) (View.ld x0 r0_139) (View.ld x0 r0_140) (View.ld x0 r0_141)) (k0_pay155 (k0_pay140 (View.ld x0 r0_135)) (k0_pay141 (View.ld x0 r0_136)) (k0_pay142 (View.ld x0 r0_137)) (View.ld x0 r0_138) (View.ld x0 r0_139) (View.ld x0 r0_140) (View.ld x0 r0_141) (View.ld x0 r0_142))) := by
  unfold k0_pay1 k0_pay148 k0_pay141 k0_pay142 k0_pay149 k0_pay134 k0_pay135 k0_pay136 k0_pay137 k0_pay138 k0_pay139 k0_pay140 k0_pay150 k0_pay151 k0_pay152 k0_pay153 k0_pay154 k0_pay155
  unfold k0_pay143 k0_pay144 k0_pay145 k0_pay146 k0_pay147
  dsimp only
  refine block_of_row3s (Val := Elt F) (e := .f32) x0 _ _ _ _ _ _ _ _ _ _ _ ?_ ?_ ?_ ?_ ?_ ?_ ?_ ?_
  all_goals refine row3_of_row (Val := Elt F) (e := .f32) x0 _ _ _ ?_
  all_goals refine row_of_slices (Val := Elt F) (e := .f32) x0 _ _ _ _ _ _ _ _ _ _ ?_ ?_ ?_ ?_ ?_ ?_ ?_ ?_
  all_goals exact slice_of_load (Val := Elt F) (e := .f32) x0 _ _ _ _ rfl rfl rfl

end Cert.KernelIdeal.Block

end
-- ==== Proof.KernelBlock.lean ====
/-
  What one grid point's body leaves in its output block, entry by entry.

  The body writes the block `[1, 1017, 8, 512]` in nine stores of 113 rows each; rows `113 c, …, 113 c + 112` come from the
  `c`-th store, whose value holds, at `(r, m, 64 p + d)`, position `113 c + m + p + r` of the left-padded sequence.  So
  every store's value is the restriction of ONE function of the block index,

      (j, m, l)  ↦  x (0, fix (j + m + l / 64), l % 64),

  and since the nine row ranges tile the block, the block after the body is that function everywhere.
-/
import proofs.«148824_j55_2_alg».proof.Proof.Chunk0
import proofs.«148824_j55_2_alg».proof.Proof.Chunk1
import proofs.«148824_j55_2_alg».proof.Proof.Chunk2
import proofs.«148824_j55_2_alg».proof.Proof.Chunk3
import proofs.«148824_j55_2_alg».proof.Proof.Chunk4
import proofs.«148824_j55_2_alg».proof.Proof.Chunk5
import proofs.«148824_j55_2_alg».proof.Proof.Chunk6
import proofs.«148824_j55_2_alg».proof.Proof.Chunk7
import proofs.«148824_j55_2_alg».proof.Proof.Chunk8

noncomputable section

namespace Cert.KernelIdeal.Block

open Idealize.ShloMosaic Idealize.ShloMosaic.ValueIdx Cert.KernelIdeal Cert.KernelIdeal.Gen Cert.Windows

variable {F : FTy → Type} [FloatOps F]

/-- The output block of one batch as a function of its input block: entry `(j, m, l)` is position `j + m + l / 64` of the
    padded sequence at `l % 64`. -/
def blockSpec (x0 : Vec F S1x1024x64 .f32) : Vec F S1x1017x8x512 .f32 :=
  fun y => x0 (ix3 (0 : Fin 1) (srcRow ((y 1).val + (y 2).val + (y 3).val / 64))
    (⟨(y 3).val % 64, Nat.mod_lt _ (by decide)⟩ : Fin 64))

/-- A value holding the block of windows that start at `n, …, n + 112`, stored at rows `n, …`, is `blockSpec` there. -/
theorem piece_ok (x0 : Vec F S1x1024x64 .f32) (n : Nat) (off : Fin 4 → Nat)
    (inb : ∀ a, off a + S1x113x8x512.size a ≤ S1x1017x8x512.size a)
    (h0 : off 0 = 0) (h1 : off 1 = n) (h2 : off 2 = 0) (h3 : off 3 = 0)
    (v : SBlock.Idx → Elt F .f32) (hv : Block (Val := Elt F) (e := .f32) x0 n v) (y : SBlock.Idx) :
    v y = blockSpec x0 ((Rect.unit (s := S1x1017x8x512) off S1x113x8x512.size inb).emb y) := by
  obtain ⟨z, r, m, l, rfl⟩ : ∃ (z : Fin 1) (r : Fin 113) (m : Fin 8) (l : Fin 512), y = ix4 z r m l :=
    ⟨y 0, y 1, y 2, y 3, eq_ix4 y⟩
  obtain rfl : z = 0 := Subsingleton.elim _ _
  have hl := l.isLt
  obtain ⟨p, d, rfl⟩ : ∃ (p : Fin 8) (d : Fin 64), l = lane p d :=
    ⟨⟨l.val / 64, by omega⟩, ⟨l.val % 64, by omega⟩, Fin.ext (by show l.val = 64 * (l.val / 64) + l.val % 64; omega)⟩
  refine (hv r m p d).trans ?_
  unfold blockSpec
  refine congrArg x0 (funext fun a => Fin.ext ?_)
  have hp := p.isLt
  have hd := d.isLt
  match a with
  | ⟨0, _⟩ => rfl
  | ⟨1, _⟩ =>
    show min (n + m.val + p.val + r.val - 7) 1023
      = min (off 1 + 1 * r.val + (off 2 + 1 * m.val) + (off 3 + 1 * (64 * p.val + d.val)) / 64 - 7) 1023
    rw [h1, h2, h3]
    have e : (0 + 1 * (64 * p.val + d.val)) / 64 = p.val := by omega
    rw [e]; omega
  | ⟨2, _⟩ =>
    show d.val = (off 3 + 1 * (64 * p.val + d.val)) % 64
    rw [h3]; omega

/-- The block after the body is `blockSpec` of the input block: each of the nine stores' values is its restriction to
    the store's rows, and the stores tile the block. -/
theorem out0_1_eq (x0 : Vec F S1x1024x64 .f32) (y : S1x1017x8x512.Idx) : Gen.out0_1 x0 y = blockSpec x0 y := by
  unfold Gen.out0_1
  refine View.canon_apply_of_pieces (blockSpec x0) _ ?_ y (Gen.cover0_1 _ _ _ _ _ _ _ _ _ y)
  refine List.forall_mem_cons.2 ⟨?_, ?_⟩
  · exact fun z => piece_ok x0 904 ![0, 904, 0, 0] Facts₀.inb_S1x1017x8x512_S1x113x8x512_0_904_0_0 rfl rfl rfl rfl _ (chunk8 x0) z
  refine List.forall_mem_cons.2 ⟨?_, ?_⟩
  · exact fun z => piece_ok x0 791 ![0, 791, 0, 0] Facts₀.inb_S1x1017x8x512_S1x113x8x512_0_791_0_0 rfl rfl rfl rfl _ (chunk7 x0) z
  refine List.forall_mem_cons.2 ⟨?_, ?_⟩
  · exact fun z => piece_ok x0 678 ![0, 678, 0, 0] Facts₀.inb_S1x1017x8x512_S1x113x8x512_0_678_0_0 rfl rfl rfl rfl _ (chunk6 x0) z
  refine List.forall_mem_cons.2 ⟨?_, ?_⟩
  · exact fun z => piece_ok x0 565 ![0, 565, 0, 0] Facts₀.inb_S1x1017x8x512_S1x113x8x512_0_565_0_0 rfl rfl rfl rfl _ (chunk5 x0) z
  refine List.forall_mem_cons.2 ⟨?_, ?_⟩
  · exact fun z => piece_ok x0 452 ![0, 452, 0, 0] Facts₀.inb_S1x1017x8x512_S1x113x8x512_0_452_0_0 rfl rfl rfl rfl _ (chunk4 x0) z
  refine List.forall_mem_cons.2 ⟨?_, ?_⟩
  · exact fun z => piece_ok x0 339 ![0, 339, 0, 0] Facts₀.inb_S1x1017x8x512_S1x113x8x512_0_339_0_0 rfl rfl rfl rfl _ (chunk3 x0) z
  refine List.forall_mem_cons.2 ⟨?_, ?_⟩
  · exact fun z => piece_ok x0 226 ![0, 226, 0, 0] Facts₀.inb_S1x1017x8x512_S1x113x8x512_0_226_0_0 rfl rfl rfl rfl _ (chunk2 x0) z
  refine List.forall_mem_cons.2 ⟨?_, ?_⟩
  · exact fun z => piece_ok x0 113 ![0, 113, 0, 0] Facts₀.inb_S1x1017x8x512_S1x113x8x512_0_113_0_0 rfl rfl rfl rfl _ (chunk1 x0) z
  refine List.forall_mem_cons.2 ⟨?_, ?_⟩
  · exact fun z => piece_ok x0 0 ![0, 0, 0, 0] Facts₀.inb_S1x1017x8x512_S1x113x8x512_0_0_0_0 rfl rfl rfl rfl _ (chunk0 x0) z
  exact fun _ h => absurd h List.not_mem_nil

/-- The body's output block of one batch, entry `(j, m, 64 p + d)`, is the batch's input row `(j + m + p) - 7` at `d`. -/
theorem out0_1_apply (x0 : Vec F S1x1024x64 .f32) (j : Fin 1017) (m p : Fin 8) (d : Fin 64) :
    Gen.out0_1 x0 (ix4 (0 : Fin 1) j m (lane p d)) = x0 (ix3 (0 : Fin 1) (srcRow (j.val + m.val + p.val)) d) := by
  rw [out0_1_eq]
  unfold blockSpec
  have hp := p.isLt
  have hd := d.isLt
  refine congrArg x0 (funext fun a => Fin.ext ?_)
  match a with
  | ⟨0, _⟩ => rfl
  | ⟨1, _⟩ =>
    show min (j.val + m.val + (64 * p.val + d.val) / 64 - 7) 1023 = min (j.val + m.val + p.val - 7) 1023
    have e : (64 * p.val + d.val) / 64 = p.val := by omega
    rw [e]
  | ⟨2, _⟩ =>
    show (64 * p.val + d.val) % 64 = d.val
    omega

end Cert.KernelIdeal.Block

end
-- ==== Proof.KernelValue.lean ====
/-
  The kernel's run read as a value: from what one grid point leaves in its output block to the whole result array.

  The grid has 16 points, one per batch.  Point `t` is handed batch `t` of the input (a `[1, 1024, 64]` block) and leaves a
  `[1, 1017, 8, 512]` block whose entry `(j, m, 64 p + d)` is input row `(j + m + p) - 7` of that batch at column `d`
  (rows before row 0 repeat row 0).  So every block written back is the restriction to its batch of ONE function of the
  input array, `merged`; the 16 blocks tile the region's output array, hence that array ends holding `merged` of the
  input.  The reshape that follows splits the 512 lanes back into `(p, d)` without moving any element in row-major order,
  which turns `merged` into the windows of the left-padded input.
-/
import proofs.«148824_j55_2_alg».proof.Proof.KernelBlock
import Idealize.ShloMosaic.Lib.Pipeline.Value
import Idealize.ShloMosaic.Lib.StableHlo.Run
import Idealize.ShloMosaic.Lib.Tactic

noncomputable section

namespace Cert.KernelIdeal.RunValue

open Idealize.ShloMosaic Idealize.ShloMosaic.TcCoe Idealize.ShloMosaic.ValueIdx Idealize.SL.Sem
open Idealize.ShloMosaic.Pipeline (Dat)
open Cert.KernelIdeal Cert.KernelIdeal.Gen Cert.Windows

variable {F : FTy → Type} [FloatOps F]

/-- The region's output array as one function of the input array: entry `(b, j, m, l)` is input row
    `(j + m + l / 64) - 7` of batch `b` at column `l % 64` (the table's last two axes merged on the lanes). -/
def merged {α : Type} (X : S16x1024x64.Idx → α) : S16x1017x8x512.Idx → α :=
  fun i => X (ix3 (⟨(i 0).val, (i 0).isLt⟩ : Fin 16) (srcRow ((i 1).val + (i 2).val + (i 3).val / 64))
    (⟨(i 3).val % 64, Nat.mod_lt _ (by decide)⟩ : Fin 64))

/-- `merged` at an index whose coordinates are known: lane `64 p + d` splits back into `(p, d)`. -/
theorem merged_eq {α : Type} (X : S16x1024x64.Idx → α) (i : S16x1017x8x512.Idx) (b : Fin 16) (j : Fin 1017) (mm p : Fin 8) (d : Fin 64)
    (h0 : (i 0).val = b.val) (h1 : (i 1).val = j.val) (h2 : (i 2).val = mm.val) (h3 : (i 3).val = 64 * p.val + d.val) :
    merged X i = X (ix3 b (srcRow (j.val + mm.val + p.val)) d) := by
  unfold merged
  refine congrArg X (funext fun a => ?_)
  match a with
  | ⟨0, _⟩ => exact Fin.ext h0
  | ⟨1, _⟩ =>
    show srcRow ((i 1).val + (i 2).val + (i 3).val / 64) = srcRow (j.val + mm.val + p.val)
    have hd : d.val < 64 := d.isLt
    have e : (i 3).val / 64 = p.val := by omega
    rw [h1, h2, e]
  | ⟨2, _⟩ =>
    have hd : d.val < 64 := d.isLt
    exact Fin.ext (by show (i 3).val % 64 = d.val; omega)

theorem merged_apply {α : Type} (X : S16x1024x64.Idx → α) (b : Fin 16) (j : Fin 1017) (mm p : Fin 8) (d : Fin 64) :
    merged X (ix4 b j mm (lane p d)) = X (ix3 b (srcRow (j.val + mm.val + p.val)) d) :=
  merged_eq X _ b j mm p d rfl rfl rfl rfl

variable (m : (ℓ : Loc nD τ sig) → Buf (Elt F) ℓ) (ρ : Dev nD → PrngReg)

/-- The printed index maps, decided over the 16 grid points: point `t` takes block `(t, 0, 0)` of the input and block
    `(t, 0, 0, 0)` of the output (one batch each). -/
theorem idx_facts : ∀ t : Fin cfg0.N, win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- The input window's block at point `t` is batch `t` of the input array: a block's coordinate in the array is the
    block index times the block size plus the coordinate inside the block. -/
theorem iblk_apply (c : Dev nD) (t : Fin cfg0.N) (x : S1x1024x64.Idx) (k : S16x1024x64.Idx)
    (hk0 : (k 0).val = t.val) (hk1 : (k 1).val = (x 1).val) (hk2 : (k 2).val = (x 2).val) :
    (iblk m c 0 t : Vec F S1x1024x64 .f32) x = (V m c main_arg0 : S16x1024x64.Idx → Elt F .f32) k := by
  obtain ⟨e0, e1, e2, -⟩ := idx_facts t
  unfold iblk
  rw [View.read_apply]
  show V m c main_arg0 _ = V m c main_arg0 _
  congr 1
  funext a
  apply Fin.ext
  match a with
  | ⟨0, _⟩ =>
    show win0_0.index t (0 : Fin 3) * 1 + 1 * (x 0).val = (k 0).val
    have hx : (x 0).val < 1 := (x 0).isLt
    rw [e0, hk0]; omega
  | ⟨1, _⟩ => show win0_0.index t (1 : Fin 3) * 1024 + 1 * (x 1).val = (k 1).val; rw [e1, hk1]; omega
  | ⟨2, _⟩ => show win0_0.index t (2 : Fin 3) * 64 + 1 * (x 2).val = (k 2).val; rw [e2, hk2]; omega

/-- Every lane of a 512-wide row is `64 p + d` for its quotient and remainder by 64. -/
theorem lane_div_mod (l : Fin 512) :
    lane (⟨l.val / 64, by have := l.isLt; omega⟩ : Fin 8) (⟨l.val % 64, Nat.mod_lt _ (by decide)⟩ : Fin 64) = l :=
  Fin.ext (by show 64 * (l.val / 64) + l.val % 64 = l.val; omega)

/-- One entry of one grid point's output block, against the whole-array function: if the body's input block `x0` is
    batch `b` of the array `X`, then entry `y` of the block the body leaves is `merged X` at the array index with the
    same last three coordinates in batch `b`. -/
theorem block_entry (x0 : Vec F S1x1024x64 .f32) (X : S16x1024x64.Idx → Elt F .f32) (b : Fin 16)
    (hx : ∀ (r : Fin 1024) (d : Fin 64), x0 (ix3 (0 : Fin 1) r d) = X (ix3 b r d))
    (y : S1x1017x8x512.Idx) (i : S16x1017x8x512.Idx)
    (h0 : (i 0).val = b.val) (h1 : (i 1).val = (y 1).val) (h2 : (i 2).val = (y 2).val) (h3 : (i 3).val = (y 3).val) :
    Gen.out0_1 x0 y = merged X i := by
  obtain ⟨y0, j, mm, l, rfl⟩ : ∃ (y0 : Fin 1) (j : Fin 1017) (mm : Fin 8) (l : Fin 512), y = ix4 y0 j mm l :=
    ⟨y 0, y 1, y 2, y 3, eq_ix4 y⟩
  obtain rfl : y0 = 0 := Fin.ext (by have := y0.isLt; omega)
  have hl := lane_div_mod l
  rw [← hl, Block.out0_1_apply, hx]
  refine (merged_eq X i b j mm _ _ h0 h1 h2 ?_).symm
  rw [h3]
  show l.val = 64 * (l.val / 64) + l.val % 64
  omega

/-- WHAT POINT `t` WRITES BACK is block `t` of `merged` of the input array as the region finds it. -/
theorem flushed_eq (c : Dev nD) (t : Fin cfg0.N) :
    (dats m 0 c).flushed 1 t = ((cfg0.win 1).blk t).view.read (Elt F) (merged (V m c main_arg0)) := by
  show (cfg0.win 1).cut (grid0.coords t) ((dats m 0 c).after 1 t) = _
  rw [after0_1]
  obtain ⟨-, -, -, e0, e1, e2, e3⟩ := idx_facts t
  have ht : t.val < 16 := lt_of_lt_of_eq t.isLt N_0
  funext y
  show Gen.out0_1 (iblk m c 0 t) y = merged (V m c main_arg0) (((cfg0.win 1).blk t).view.emb y)
  refine block_entry (iblk m c 0 t) (V m c main_arg0) ⟨t.val, ht⟩
    (fun r d => iblk_apply m c t (ix3 (0 : Fin 1) r d) (ix3 (⟨t.val, ht⟩ : Fin 16) r d) rfl rfl rfl) y _ ?_ ?_ ?_ ?_
  · show win0_1.index t (0 : Fin 4) * 1 + 1 * (y 0).val = t.val
    have hy : (y 0).val < 1 := (y 0).isLt
    rw [e0]; omega
  · show win0_1.index t (1 : Fin 4) * 1017 + 1 * (y 1).val = (y 1).val; rw [e1]; omega
  · show win0_1.index t (2 : Fin 4) * 8 + 1 * (y 2).val = (y 2).val; rw [e2]; omega
  · show win0_1.index t (3 : Fin 4) * 512 + 1 * (y 3).val = (y 3).val; rw [e3]; omega

/-- An index of the output array is in point `t`'s block iff each coordinate is in the block's range on its axis. -/
theorem mem_blk (t : Fin cfg0.N) (i : S16x1017x8x512.Idx) :
    i ∈ ((cfg0.win 1).blk t).view.set ↔ ∀ a : Fin 4, win0_1.index t a * S1x1017x8x512.size a ≤ (i a).val
      ∧ (i a).val < win0_1.index t a * S1x1017x8x512.size a + S1x1017x8x512.size a := by
  show i ∈ ((View.whole main_v0).slice (win0_1.rect t)).set ↔ _
  rw [View.set_slice_whole, Rect.mem_set_unit]
  exact Iff.rfl

/-- Every entry of the output array is written back: entry `(b, j, m, l)` lies in the block of grid point `b`. -/
theorem cover (i : S16x1017x8x512.Idx) :
    ∃ t : Fin cfg0.N, (cfg0.win 1).flush t = true ∧ i ∈ ((cfg0.win 1).blk t).view.set := by
  have hi0 : (i 0).val < 16 := (i 0).isLt
  have hi1 : (i 1).val < 1017 := (i 1).isLt
  have hi2 : (i 2).val < 8 := (i 2).isLt
  have hi3 : (i 3).val < 512 := (i 3).isLt
  let t : Fin cfg0.N := ⟨(i 0).val, lt_of_lt_of_eq hi0 N_0.symm⟩
  obtain ⟨-, -, -, e0, e1, e2, e3⟩ := idx_facts t
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    rw [e0]; show (i 0).val * 1 ≤ (i 0).val ∧ (i 0).val < (i 0).val * 1 + 1; omega
  | ⟨1, _⟩ =>
    show win0_1.index t (1 : Fin 4) * 1017 ≤ (i 1).val ∧ (i 1).val < win0_1.index t (1 : Fin 4) * 1017 + 1017
    rw [e1]; omega
  | ⟨2, _⟩ =>
    show win0_1.index t (2 : Fin 4) * 8 ≤ (i 2).val ∧ (i 2).val < win0_1.index t (2 : Fin 4) * 8 + 8
    rw [e2]; omega
  | ⟨3, _⟩ =>
    show win0_1.index t (3 : Fin 4) * 512 ≤ (i 3).val ∧ (i 3).val < win0_1.index t (3 : Fin 4) * 512 + 512
    rw [e3]; omega

/-- THE REGION'S OUTPUT ARRAY after the run is `merged` of the input array. -/
theorem final (c : Dev nD) : (dats m 0 c).arrAt 1 cfg0.N = merged (V m c main_arg0) :=
  (dats m 0 c).arrAt_eq_of_cover 1 (merged (V m c main_arg0)) (fun t _ => flushed_eq m c t) cover

/-- The reshape after the region reads entry `(b, j, m, p, d)` of the result at entry `(b, j, m, 64 p + d)` of the
    region's output — the same row-major position —, so the result is the windows of the padded input. -/
theorem result_eq (c : Dev nD) :
    Pipeline.afterTail₀ cfgs (dats m) 0 (V0 m) [hostOps1] c main_v1
      = windows (m ((c.tc : Thread nD τ).loc main_arg0)) := by
  rw [← V_main_arg0 m c]
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = merged (V m c main_arg0) :=
    (Pipeline.withArrays_arr spec0 launch0.win.arr_inj c _ _ 1).trans (final m c)
  rw [e]
  funext i
  obtain ⟨b, j, mm, p, d, rfl⟩ : ∃ (b : Fin 16) (j : Fin 1017) (mm p : Fin 8) (d : Fin 64), i = ix5 b j mm p d :=
    ⟨i 0, i 1, i 2, i 3, i 4, eq_ix5 i⟩
  rw [windows_apply]
  show shapeCast S16x1017x8x8x64 (merged (V m c main_arg0)) shapeCasts_S16x1017x8x512_S16x1017x8x8x64 (ix5 b j mm p d) = _
  refine (shapeCast_apply _ _ (ix5 b j mm p d) (ix4 b j mm (lane p d)) ?_).trans (merged_apply _ b j mm p d)
  rw [Shape.rowMajor_val_four, Shape.rowMajor_val_five]
  show ((b.val * 1017 + j.val) * 8 + mm.val) * 512 + (64 * p.val + d.val)
    = (((b.val * 1017 + j.val) * 8 + mm.val) * 8 + p.val) * 64 + d.val
  omega

/-- The result buffer is none of the pipeline's arrays and is unscoped, so the frame run's post states it as the
    lines after the region leave it. -/
theorem result_mem_rest : main_v1 ∈ Pipeline.restRefs sig (cfgs 0).spec :=
  Pipeline.mem_restRefs_of main_v1 rfl (by decide)

/-- THE RUN, READ: after every weakly fair execution the result buffer holds the windows of the left-padded input,
    and the input is as launched. -/
theorem run (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v1) = Cert.Windows.windows (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run defs _ _).mono (fun r h c => ⟨((h c).2 main_v1 result_mem_rest).trans (result_eq m c),
      ((h c).1 0).trans (((dats m 0 c).arrAt_in 0 rfl _).trans ((A_eq m c 0).trans (V_main_arg0 m c)))⟩)
    (run_main m ρ)

end Cert.KernelIdeal.RunValue

end
-- ==== Proof.lean ====
/-
  The kernel and its reference are the same rearrangement of the input.

  For an input `x : f32[16, 1024, 64]` let `fix` be `x` padded on the left, along the rows of each batch, with seven
  copies of row 0: position `n` of `fix` holds row `n - 7` (truncated subtraction, so row 0 for `n < 7`).  Both programs
  return, for every batch `b` and start `j < 1017`, the 8 x 8 table of rows `fix (j + m + p)`:

      out (b, j, m, p, d) = x (b, (j + m + p) - 7, d)                       (`Cert.Windows.windows`, Proof/Spec.lean).

  No entry is computed, only copied, so the two results are equal entry by entry whatever the entries are — finite or not —
  and the precondition is never opened.

  * The reference builds `fix` by a concatenation, the positions `j + m + p` as 32-bit integers (at most 1030, so they are
    never negative and never clamped), and reads `fix` there by one gather (Proof/RefValue.lean, over the generated
    read-at-an-index lemmas of the reference's run).
  * The kernel handles one batch per grid point.  Its body writes the block `[1017, 8, 512]` — the last two axes `(p, d)`
    merged on the lanes as `64 p + d` — in nine stores of 113 starts each; a store's value is a stack over `m` of eight
    runs of 113 consecutive positions of `fix` laid side by side over `p`, a run inside the pad being copies of row 0
    joined above the first rows (Proof/WindowPieces.lean for the operations, Proof/Chunk0 … Chunk8.lean for the nine
    stores, Proof/KernelBlock.lean for the block).  The blocks of the sixteen grid points tile the result array, and the
    reshape after the call splits the lanes back into `(p, d)` (Proof/KernelValue.lean).

  The three frames are the generated runs; nothing was rewritten by the idealization, so `preserves` is trivial.
-/
import proofs.«148824_j55_2_alg».proof.Defs
import proofs.«148824_j55_2_alg».proof.Proof.Gen.Kernel
import proofs.«148824_j55_2_alg».proof.Proof.Gen.Kernel.Skeleton
import proofs.«148824_j55_2_alg».proof.Proof.Gen.Kernel.Launch
import proofs.«148824_j55_2_alg».proof.Proof.Gen.Kernel.Points
import proofs.«148824_j55_2_alg».proof.Proof.Gen.Kernel.Frame
import proofs.«148824_j55_2_alg».proof.Proof.Gen.KernelIdeal
import proofs.«148824_j55_2_alg».proof.Proof.Gen.KernelIdeal.Skeleton
import proofs.«148824_j55_2_alg».proof.Proof.Gen.KernelIdeal.Launch
import proofs.«148824_j55_2_alg».proof.Proof.Gen.KernelIdeal.Points
import proofs.«148824_j55_2_alg».proof.Proof.Gen.KernelIdeal.Frame
import proofs.«148824_j55_2_alg».proof.Proof.Gen.ReferenceIdeal
import proofs.«148824_j55_2_alg».proof.Proof.Gen.ReferenceIdeal.Run
import proofs.«148824_j55_2_alg».proof.Proof.Gen.ReferenceIdeal.Read
import proofs.«148824_j55_2_alg».proof.Proof.Gen.Pre_finite_inputs
import proofs.«148824_j55_2_alg».proof.Proof.RefValue
import proofs.«148824_j55_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result forgotten. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- Both runs end with the result at `windows` of the one input array they agree on. -/
theorem algebraic : Cert.algebraic_KernelIdeal_ReferenceIdeal := by
  intro m ρ m' ρ' _ hagree
  refine ⟨fun c => Cert.Windows.windows
    (m ((c.tc : Thread Cert.KernelIdeal.nD Cert.KernelIdeal.τ).loc Cert.KernelIdeal.main_arg0)),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
